-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x16x1024x128 : Shape := ⟨4, ![8, 16, 1024, 128]⟩
abbrev S8x16x1024x1024 : Shape := ⟨4, ![8, 16, 1024, 1024]⟩
abbrev S_ : Shape := ⟨0, ![]⟩
abbrev S1x16x1024x1024 : Shape := ⟨4, ![1, 16, 1024, 1024]⟩
abbrev S16x1024x1024 : Shape := ⟨3, ![16, 1024, 1024]⟩

class Facts : Prop where
  bcast_S_S8x16x1024x128 : S_.BroadcastsInDim S8x16x1024x128 (![] : Fin 0 → Fin S8x16x1024x128.rank)
  reducesTo_S8x16x1024x128_S_d0_1_2_3 : S8x16x1024x128.ReducesTo [0, 1, 2, 3] S_
  h_S_ : 0 < S_.numel
  bcast_S_S8x16x1024x1024 : S_.BroadcastsInDim S8x16x1024x1024 (![] : Fin 0 → Fin S8x16x1024x1024.rank)
  reducesTo_S8x16x1024x1024_S_d0_1_2_3 : S8x16x1024x1024.ReducesTo [0, 1, 2, 3] S_
  slices_S8x16x1024x1024_S1x16x1024x1024_0_0_0_0 : S8x16x1024x1024.Slices ![0, 0, 0, 0] S1x16x1024x1024
  shapeCasts_S1x16x1024x1024_S16x1024x1024 : S1x16x1024x1024.ShapeCasts S16x1024x1024
  bcast_S_S16x1024x1024 : S_.BroadcastsInDim S16x1024x1024 (![] : Fin 0 → Fin S16x1024x1024.rank)
  reducesTo_S16x1024x1024_S_d0_1_2 : S16x1024x1024.ReducesTo [0, 1, 2] S_

variable [Facts]

def fn_part1 {F : FTy → Type} [FloatOps F] (main_arg3 : FVec F S8x16x1024x1024 .f32) (main_v13 : IVec S_ 1) (main_v16 : IVec S8x16x1024x1024 1) : IVec S_ 1 :=
  let main_c_5 : IVec S_ 1 := constantI S_ 1 1#1
  let main_v17 : IVec S_ 1 := (fun x v => Host.reduce IntOp.andi x v reducesTo_S8x16x1024x1024_S_d0_1_2_3 h_S_) main_v16 main_c_5
  let main_v18 : IVec S_ 1 := andi main_v13 main_v17
  let main_v19 : FVec F S1x16x1024x1024 .f32 := (extractStridedSlice S1x16x1024x1024 ![0, 0, 0, 0] · slices_S8x16x1024x1024_S1x16x1024x1024_0_0_0_0) main_arg3
  let main_v20 : FVec F S16x1024x1024 .f32 := shapeCast S16x1024x1024 main_v19 shapeCasts_S1x16x1024x1024_S16x1024x1024
  let main_cst_6 : FVec F S_ .f32 := constant S_ .f32 0x00000000#32
  let main_v21 : FVec F S16x1024x1024 .f32 := broadcastInDim S16x1024x1024 ![] bcast_S_S16x1024x1024 main_cst_6
  let main_v22 : IVec S16x1024x1024 1 := cmpf .ogt main_v20 main_v21
  let main_c_7 : IVec S_ 1 := constantI S_ 1 1#1
  let main_v23 : IVec S_ 1 := (fun x v => Host.reduce IntOp.andi x v reducesTo_S16x1024x1024_S_d0_1_2 h_S_) main_v22 main_c_7
  let main_v24 : IVec S_ 1 := andi main_v18 main_v23
  main_v24

def fn {F : FTy → Type} [FloatOps F] (main_arg0 : FVec F S8x16x1024x128 .f32) (main_arg1 : FVec F S8x16x1024x128 .f32) (main_arg2 : FVec F S8x16x1024x128 .f32) (main_arg3 : FVec F S8x16x1024x1024 .f32) : IVec S_ 1 :=
  let main_v0 : FVec F S8x16x1024x128 .f32 := Host.absf main_arg0
  let main_cst : FVec F S_ .f32 := constant S_ .f32 0x7F800000#32
  let main_v1 : FVec F S8x16x1024x128 .f32 := broadcastInDim S8x16x1024x128 ![] bcast_S_S8x16x1024x128 main_cst
  let main_v2 : IVec S8x16x1024x128 1 := cmpf .olt main_v0 main_v1
  let main_c : IVec S_ 1 := constantI S_ 1 1#1
  let main_v3 : IVec S_ 1 := (fun x v => Host.reduce IntOp.andi x v reducesTo_S8x16x1024x128_S_d0_1_2_3 h_S_) main_v2 main_c
  let main_v4 : FVec F S8x16x1024x128 .f32 := Host.absf main_arg1
  let main_cst_0 : FVec F S_ .f32 := constant S_ .f32 0x7F800000#32
  let main_v5 : FVec F S8x16x1024x128 .f32 := broadcastInDim S8x16x1024x128 ![] bcast_S_S8x16x1024x128 main_cst_0
  let main_v6 : IVec S8x16x1024x128 1 := cmpf .olt main_v4 main_v5
  let main_c_1 : IVec S_ 1 := constantI S_ 1 1#1
  let main_v7 : IVec S_ 1 := (fun x v => Host.reduce IntOp.andi x v reducesTo_S8x16x1024x128_S_d0_1_2_3 h_S_) main_v6 main_c_1
  let main_v8 : IVec S_ 1 := andi main_v3 main_v7
  let main_v9 : FVec F S8x16x1024x128 .f32 := Host.absf main_arg2
  let main_cst_2 : FVec F S_ .f32 := constant S_ .f32 0x7F800000#32
  let main_v10 : FVec F S8x16x1024x128 .f32 := broadcastInDim S8x16x1024x128 ![] bcast_S_S8x16x1024x128 main_cst_2
  let main_v11 : IVec S8x16x1024x128 1 := cmpf .olt main_v9 main_v10
  let main_c_3 : IVec S_ 1 := constantI S_ 1 1#1
  let main_v12 : IVec S_ 1 := (fun x v => Host.reduce IntOp.andi x v reducesTo_S8x16x1024x128_S_d0_1_2_3 h_S_) main_v11 main_c_3
  let main_v13 : IVec S_ 1 := andi main_v8 main_v12
  let main_v14 : FVec F S8x16x1024x1024 .f32 := Host.absf main_arg3
  let main_cst_4 : FVec F S_ .f32 := constant S_ .f32 0x7F800000#32
  let main_v15 : FVec F S8x16x1024x1024 .f32 := broadcastInDim S8x16x1024x1024 ![] bcast_S_S8x16x1024x1024 main_cst_4
  let main_v16 : IVec S8x16x1024x1024 1 := cmpf .olt main_v14 main_v15
  fn_part1 (F := F) main_arg3 main_v13 main_v16
-- ==== Kernel.lean ====
abbrev S8x16x1024x128 : Shape := ⟨4, ![8, 16, 1024, 128]⟩
abbrev S8x16x1024x1024 : Shape := ⟨4, ![8, 16, 1024, 1024]⟩
abbrev S1x1x512x128 : Shape := ⟨4, ![1, 1, 512, 128]⟩
abbrev S1x1x1024x128 : Shape := ⟨4, ![1, 1, 1024, 128]⟩
abbrev S1x1x512x1024 : Shape := ⟨4, ![1, 1, 512, 1024]⟩
abbrev S512x1024 : Shape := ⟨2, ![512, 1024]⟩
abbrev S512x128 : Shape := ⟨2, ![512, 128]⟩
abbrev S1024x128 : Shape := ⟨2, ![1024, 128]⟩
abbrev S512 : Shape := ⟨1, ![512]⟩
abbrev S512x1 : Shape := ⟨2, ![512, 1]⟩

abbrev nBuf : Space → Nat
  | .hbm => 5
  | .vmem => 13
  | .smem => 0
  | _ => 0

abbrev bufTy : (tb : Table) → Fin (tcTables nBuf tb) → BufTy
  | .hbm, ⟨0, _⟩ => ⟨S8x16x1024x128, .f32⟩
  | .hbm, ⟨1, _⟩ => ⟨S8x16x1024x128, .f32⟩
  | .hbm, ⟨2, _⟩ => ⟨S8x16x1024x128, .f32⟩
  | .hbm, ⟨3, _⟩ => ⟨S8x16x1024x1024, .f32⟩
  | .hbm, ⟨4, _⟩ => ⟨S8x16x1024x128, .f32⟩
  | .local _ .vmem, ⟨0, _⟩ => ⟨S1x1x512x128, .f32⟩
  | .local _ .vmem, ⟨1, _⟩ => ⟨S1x1x512x128, .f32⟩
  | .local _ .vmem, ⟨2, _⟩ => ⟨S1x1x1024x128, .f32⟩
  | .local _ .vmem, ⟨3, _⟩ => ⟨S1x1x1024x128, .f32⟩
  | .local _ .vmem, ⟨4, _⟩ => ⟨S1x1x1024x128, .f32⟩
  | .local _ .vmem, ⟨5, _⟩ => ⟨S1x1x1024x128, .f32⟩
  | .local _ .vmem, ⟨6, _⟩ => ⟨S1x1x512x1024, .f32⟩
  | .local _ .vmem, ⟨7, _⟩ => ⟨S1x1x512x1024, .f32⟩
  | .local _ .vmem, ⟨8, _⟩ => ⟨S1x1x512x1024, .f32⟩
  | .local _ .vmem, ⟨9, _⟩ => ⟨S1x1x512x1024, .f32⟩
  | .local _ .vmem, ⟨10, _⟩ => ⟨S1x1x512x128, .f32⟩
  | .local _ .vmem, ⟨11, _⟩ => ⟨S1x1x512x128, .f32⟩
  | .local _ .vmem, ⟨12, _⟩ => ⟨S512x1024, .f32⟩
  | _, _ => ⟨S8x16x1024x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![16, 2, 8], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg2.toNat, arg0.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg2.toNat, arg0.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg0.toNat, arg1.toNat, c0_i32_0.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg0.toNat, arg1.toNat, c0_i32.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg0.toNat, arg1.toNat, c0_i32.toNat]

abbrev stage0_0 : Fin 2 → Memref sig .tc .vmem S1x1x512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1x1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1x512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

class Facts₀ : Prop where
  inb_S1x1x512x1024_S1x1x512x1024_0_0_0_0 : ∀ a, (![0, 0, 0, 0] : Fin 4 → Nat) a + S1x1x512x1024.size a ≤ S1x1x512x1024.size a
  h_S1x1x512x1024 : 0 < S1x1x512x1024.numel
  shapeCasts_S1x1x512x1024_S512x1024 : S1x1x512x1024.ShapeCasts S512x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1x1x512x128_S1x1x512x128_0_0_0_0 : ∀ a, (![0, 0, 0, 0] : Fin 4 → Nat) a + S1x1x512x128.size a ≤ S1x1x512x128.size a
  h_S1x1x512x128 : 0 < S1x1x512x128.numel
  shapeCasts_S1x1x512x128_S512x128 : S1x1x512x128.ShapeCasts S512x128
  bitsLt_bf16_f32 : FTy.bits .bf16 < FTy.bits .f32
  inb_S1x1x1024x128_S1x1x1024x128_0_0_0_0 : ∀ a, (![0, 0, 0, 0] : Fin 4 → Nat) a + S1x1x1024x128.size a ≤ S1x1x1024x128.size a
  h_S1x1x1024x128 : 0 < S1x1x1024x128.numel
  shapeCasts_S1x1x1024x128_S1024x128 : S1x1x1024x128.ShapeCasts S1024x128
  reduces_S512x1024_S512 : S512x1024.Reduces [1] S512
  shapeCasts_S512_S512x1 : S512.ShapeCasts S512x1
  broadcasts_S512x1_S512x1024 : S512x1.Broadcasts S512x1024
  shapeCasts_S512x128_S1x1x512x128 : S512x128.ShapeCasts S1x1x512x128
  dot_S512x128_S1024x128_S512x1024_1_1_0_0_n_n_wf : DotDims.WF S512x128 S1024x128 S512x1024 [1] [1] [0] [0] [] []
  dot_S512x1024_S1024x128_S512x128_1_0_0_1_n_n_wf : DotDims.WF S512x1024 S1024x128 S512x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x512x128.size a ≤ S8x16x1024x128.size a
  hwx0_0 : ∀ i : grid0.Coords, EltTy.bits .f32 = 32 ∨ (Rect.block (s := S8x16x1024x128) S1x1x512x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x1024x128.size a ≤ S8x16x1024x128.size a
  hwx0_1 : ∀ i : grid0.Coords, EltTy.bits .f32 = 32 ∨ (Rect.block (s := S8x16x1024x128) S1x1x1024x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1024x128.size a ≤ S8x16x1024x128.size a
  hwx0_2 : ∀ i : grid0.Coords, EltTy.bits .f32 = 32 ∨ (Rect.block (s := S8x16x1024x128) S1x1x1024x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x512x1024.size a ≤ S8x16x1024x1024.size a
  hwx0_3 : ∀ i : grid0.Coords, EltTy.bits .f32 = 32 ∨ (Rect.block (s := S8x16x1024x1024) S1x1x512x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x512x1024.size a ≤ S8x16x1024x1024.size a
  hwx0_4 : ∀ i : grid0.Coords, EltTy.bits .f32 = 32 ∨ (Rect.block (s := S8x16x1024x1024) S1x1x512x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x512x128.size a ≤ S8x16x1024x128.size a
  hwx0_5 : ∀ i : grid0.Coords, EltTy.bits .f32 = 32 ∨ (Rect.block (s := S8x16x1024x128) S1x1x512x128.size (cc0_transform_5 i) (hinb0_5 i)).WholeWords (EltTy.packing .f32)

variable [Facts₀]

def dot_S512x128_S1024x128_S512x1024_1_1_0_0_n_n : DotDims S512x128 S1024x128 S512x1024 where
  lhsContracting := [1]
  rhsContracting := [1]
  lhsNonContracting := [0]
  rhsNonContracting := [0]
  lhsBatch := []
  rhsBatch := []
  wf := dot_S512x128_S1024x128_S512x1024_1_1_0_0_n_n_wf
def dot_S512x1024_S1024x128_S512x128_1_0_0_1_n_n : DotDims S512x1024 S1024x128 S512x128 where
  lhsContracting := [1]
  rhsContracting := [0]
  lhsNonContracting := [0]
  rhsNonContracting := [1]
  lhsBatch := []
  rhsBatch := []
  wf := dot_S512x1024_S1024x128_S512x128_1_0_0_1_n_n_wf

abbrev win0_0 : Pipeline.Window sig grid0 :=
  Pipeline.Window.ofSpec (Memref.whole main_arg0) S1x1x512x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1x1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x1x1024x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x1x512x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S1x1x512x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0) S1x1x512x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8x16x1024x128 : Shape := ⟨4, ![8, 16, 1024, 128]⟩
abbrev S8x16x1024x1024 : Shape := ⟨4, ![8, 16, 1024, 1024]⟩
abbrev S1x16x1024x1024 : Shape := ⟨4, ![1, 16, 1024, 1024]⟩
abbrev S16x1024x1024 : Shape := ⟨3, ![16, 1024, 1024]⟩
abbrev S_ : Shape := ⟨0, ![]⟩
abbrev S8x16x1024 : Shape := ⟨3, ![8, 16, 1024]⟩
abbrev S8x16x1024x1 : Shape := ⟨4, ![8, 16, 1024, 1]⟩

abbrev nBuf : Space → Nat
  | .hbm => 27
  | .vmem => 0
  | .smem => 0
  | _ => 0

abbrev bufTy : (tb : Table) → Fin (tcTables nBuf tb) → BufTy
  | .hbm, ⟨0, _⟩ => ⟨S8x16x1024x128, .f32⟩
  | .hbm, ⟨1, _⟩ => ⟨S8x16x1024x128, .f32⟩
  | .hbm, ⟨2, _⟩ => ⟨S8x16x1024x128, .f32⟩
  | .hbm, ⟨3, _⟩ => ⟨S8x16x1024x1024, .f32⟩
  | .hbm, ⟨4, _⟩ => ⟨S8x16x1024x1024, .f32⟩
  | .hbm, ⟨5, _⟩ => ⟨S1x16x1024x1024, .f32⟩
  | .hbm, ⟨6, _⟩ => ⟨S16x1024x1024, .f32⟩
  | .hbm, ⟨7, _⟩ => ⟨S16x1024x1024, .f32⟩
  | .hbm, ⟨8, _⟩ => ⟨S1x16x1024x1024, .f32⟩
  | .hbm, ⟨9, _⟩ => ⟨S8x16x1024x1024, .f32⟩
  | .hbm, ⟨10, _⟩ => ⟨S8x16x1024x1024, .f32⟩
  | .hbm, ⟨11, _⟩ => ⟨S8x16x1024x1024, .f32⟩
  | .hbm, ⟨12, _⟩ => ⟨S_, .f32⟩
  | .hbm, ⟨13, _⟩ => ⟨S8x16x1024, .f32⟩
  | .hbm, ⟨14, _⟩ => ⟨S_, .f32⟩
  | .hbm, ⟨15, _⟩ => ⟨S8x16x1024, .f32⟩
  | .hbm, ⟨16, _⟩ => ⟨S8x16x1024, .f32⟩
  | .hbm, ⟨17, _⟩ => ⟨S8x16x1024x1, .f32⟩
  | .hbm, ⟨18, _⟩ => ⟨S8x16x1024x1024, .f32⟩
  | .hbm, ⟨19, _⟩ => ⟨S8x16x1024x1024, .f32⟩
  | .hbm, ⟨20, _⟩ => ⟨S8x16x1024x1024, .f32⟩
  | .hbm, ⟨21, _⟩ => ⟨S_, .f32⟩
  | .hbm, ⟨22, _⟩ => ⟨S8x16x1024, .f32⟩
  | .hbm, ⟨23, _⟩ => ⟨S8x16x1024x1, .f32⟩
  | .hbm, ⟨24, _⟩ => ⟨S8x16x1024x1024, .f32⟩
  | .hbm, ⟨25, _⟩ => ⟨S8x16x1024x1024, .f32⟩
  | .hbm, ⟨26, _⟩ => ⟨S8x16x1024x128, .f32⟩
  | _, _ => ⟨S8x16x1024x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_1 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]

class Facts₀ : Prop where
  slices_S8x16x1024x1024_S1x16x1024x1024_0_0_0_0 : S8x16x1024x1024.Slices ![0, 0, 0, 0] S1x16x1024x1024
  shapeCasts_S1x16x1024x1024_S16x1024x1024 : S1x16x1024x1024.ShapeCasts S16x1024x1024
  bcast_S16x1024x1024_S1x16x1024x1024_1_2_3 : S16x1024x1024.BroadcastsInDim S1x16x1024x1024 (![1, 2, 3] : Fin 3 → Fin S1x16x1024x1024.rank)
  bcast_S1x16x1024x1024_S8x16x1024x1024_0_1_2_3 : S1x16x1024x1024.BroadcastsInDim S8x16x1024x1024 (![0, 1, 2, 3] : Fin 4 → Fin S8x16x1024x1024.rank)
  reducesTo_S8x16x1024x1024_S8x16x1024_d3 : S8x16x1024x1024.ReducesTo [3] S8x16x1024
  h_S_ : 0 < S_.numel
  bcast_S_S8x16x1024 : S_.BroadcastsInDim S8x16x1024 (![] : Fin 0 → Fin S8x16x1024.rank)
  bcast_S8x16x1024_S8x16x1024x1_0_1_2 : S8x16x1024.BroadcastsInDim S8x16x1024x1 (![0, 1, 2] : Fin 3 → Fin S8x16x1024x1.rank)
  bcast_S8x16x1024x1_S8x16x1024x1024_0_1_2_3 : S8x16x1024x1.BroadcastsInDim S8x16x1024x1024 (![0, 1, 2, 3] : Fin 4 → Fin S8x16x1024x1024.rank)
  dot_S8x16x1024x128_S8x16x1024x128_S8x16x1024x1024_3_3_2_2_01_01_wf : DotDims.WF S8x16x1024x128 S8x16x1024x128 S8x16x1024x1024 [3] [3] [2] [2] [0, 1] [0, 1]
  dot_S8x16x1024x1024_S8x16x1024x128_S8x16x1024x128_3_2_2_3_01_01_wf : DotDims.WF S8x16x1024x1024 S8x16x1024x128 S8x16x1024x128 [3] [2] [2] [3] [0, 1] [0, 1]

variable [Facts₀]

def dot_S8x16x1024x128_S8x16x1024x128_S8x16x1024x1024_3_3_2_2_01_01 : DotDims S8x16x1024x128 S8x16x1024x128 S8x16x1024x1024 where
  lhsContracting := [3]
  rhsContracting := [3]
  lhsNonContracting := [2]
  rhsNonContracting := [2]
  lhsBatch := [0, 1]
  rhsBatch := [0, 1]
  wf := dot_S8x16x1024x128_S8x16x1024x128_S8x16x1024x1024_3_3_2_2_01_01_wf
def dot_S8x16x1024x1024_S8x16x1024x128_S8x16x1024x128_3_2_2_3_01_01 : DotDims S8x16x1024x1024 S8x16x1024x128 S8x16x1024x128 where
  lhsContracting := [3]
  rhsContracting := [2]
  lhsNonContracting := [2]
  rhsNonContracting := [3]
  lhsBatch := [0, 1]
  rhsBatch := [0, 1]
  wf := dot_S8x16x1024x1024_S8x16x1024x128_S8x16x1024x128_3_2_2_3_01_01_wf

class Facts : Prop extends Facts₀ where

variable [Facts]
-- ==== Proof.KBBody.lean ====
/-
  The kernel body at a symbolic grid point. The grid is (16 heads, 2 query tiles, 8 batches), the batch innermost.
  At a point whose batch coordinate is 0 the body first overwrites its scratch with the reciprocal square roots of the
  batch-0 scale block; at every point it then reads the query, key, value and scale blocks and the scratch, and stores
  one output block. Two runs, one per kind of point: each leaves the five input buffers as they were, the scratch at
  the reciprocal square roots (first kind) or untouched (other kind), and the output buffer at the stored block.
-/
import proofs.«173591_j54795192762892_2_alg».proof.Proof.Gen.Kernel
import proofs.«173591_j54795192762892_2_alg».proof.Proof.Gen.Kernel.Skeleton
import proofs.«173591_j54795192762892_2_alg».proof.Proof.Gen.Kernel.Launch
import Idealize.ShloMosaic.Lib.Writes
import Idealize.ShloMosaic.Lib.Pipeline.FrameBody
import Idealize.ShloMosaic.Lib.Tactic

set_option maxRecDepth 16384

noncomputable section

namespace Cert.Proof.KB

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The scratch memref, whole. -/
abbrev scrM : Memref sig .tc .vmem S512x1024 .f32 := Memref.whole cc0_scratch0

/-- The rectangles the accesses go through: each the whole buffer at zero offsets. -/
abbrev rQ : Rect S1x1x512x128 := Rect.unit (s := S1x1x512x128) ![0, 0, 0, 0] S1x1x512x128.size inb_S1x1x512x128_S1x1x512x128_0_0_0_0
abbrev rK : Rect S1x1x1024x128 := Rect.unit (s := S1x1x1024x128) ![0, 0, 0, 0] S1x1x1024x128.size inb_S1x1x1024x128_S1x1x1024x128_0_0_0_0
abbrev rS : Rect S1x1x512x1024 := Rect.unit (s := S1x1x512x1024) ![0, 0, 0, 0] S1x1x512x1024.size inb_S1x1x512x1024_S1x1x512x1024_0_0_0_0
abbrev rC : Rect S512x1024 := Rect.unit (s := S512x1024) ![0, 0] S512x1024.size inb_S512x1024_S512x1024_0_0

/-- "The batch coordinate is 0", as the body computes it. -/
abbrev IsFirst (t : Fin cfg0.N) : Prop :=
  Scalar.cmpi .ne (Scalar.extui (Scalar.cmpi .eq (BitVec.ofNat 32 ((grid0.coords t) 2).val) 0#32)) 0#32 = 1#1

/-- The scratch after a first point: the reciprocal square roots of the batch-0 scale block. -/
abbrev scrv (x3 : Vec F S1x1x512x1024 .f32) : Vec F S512x1024 .f32 :=
  View.canon [⟨rC, k0_pay2 (View.ld x3 rS)⟩]
/-- The output block, from the four blocks read and the scratch as the body reads it back. -/
abbrev outv (x0 : Vec F S1x1x512x128 .f32) (x1 x2 : Vec F S1x1x1024x128 .f32) (x4 : Vec F S1x1x512x1024 .f32) (a : Vec F S512x1024 .f32) :
    Vec F S1x1x512x128 .f32 :=
  View.canon [⟨rQ, k0_pay1 (k0_pay3 (View.ld x0 rQ) (View.ld x1 rK) (View.ld x2 rK) (View.ld x4 rS) a)⟩]

omit [FloatOps F] in
theorem coverC (p : Vec F S512x1024 .f32) (y : S512x1024.Idx) : ∃ pc ∈ ([⟨rC, p⟩] : List (View.Piece (Elt F) S512x1024 .f32)), y ∈ pc.1.set :=
  View.cover_of_tiled [⟨rC, p⟩] S512x1024.size (by rfl) y
omit [FloatOps F] in
theorem coverQ (p : Vec F S1x1x512x128 .f32) (y : S1x1x512x128.Idx) : ∃ pc ∈ ([⟨rQ, p⟩] : List (View.Piece (Elt F) S1x1x512x128 .f32)), y ∈ pc.1.set :=
  View.cover_of_tiled [⟨rQ, p⟩] S1x1x512x128.size (by rfl) y

section Runs

variable (c : Dev nD) (t : Fin cfg0.N)
  (M0 : Memref sig .tc .vmem S1x1x512x128 .f32) (h0 : M0.IsWhole) (M1 : Memref sig .tc .vmem S1x1x1024x128 .f32) (h1 : M1.IsWhole)
  (M2 : Memref sig .tc .vmem S1x1x1024x128 .f32) (h2 : M2.IsWhole) (M3 : Memref sig .tc .vmem S1x1x512x1024 .f32) (h3 : M3.IsWhole)
  (M4 : Memref sig .tc .vmem S1x1x512x1024 .f32) (h4 : M4.IsWhole) (M5 : Memref sig .tc .vmem S1x1x512x128 .f32) (h5 : M5.IsWhole)
  (x0 : Vec F S1x1x512x128 .f32) (x1 x2 : Vec F S1x1x1024x128 .f32) (x3 x4 : Vec F S1x1x512x1024 .f32) (a : Vec F S512x1024 .f32)

local notation "BODY" => cc0__attn_kernel (grid0.coords t) M0 h0 M1 h1 M2 h2 M3 h3 M4 h4 M5 h5 (Memref.whole cc0_scratch0) (Memref.isWhole_whole _)

/-- A first point: the scratch, whatever it held, ends at `scrv x3`, and the output block is computed from it as read back. -/
theorem run_first (hF : IsFirst t) (Q : PUnit → sProp 𝕄) :
    iprop(owns (c : Thread nD τ) M0 fullShare x0 ∗ owns (c : Thread nD τ) M1 fullShare x1 ∗ owns (c : Thread nD τ) M2 fullShare x2
        ∗ owns (c : Thread nD τ) M3 fullShare x3 ∗ owns (c : Thread nD τ) M4 fullShare x4 ∗ (∃ d, owns (c : Thread nD τ) M5 fullShare d)
        ∗ (∃ a', owns (c : Thread nD τ) scrM fullShare a')
      ∗ (iprop(owns (c : Thread nD τ) M0 fullShare x0 ∗ owns (c : Thread nD τ) M1 fullShare x1 ∗ owns (c : Thread nD τ) M2 fullShare x2
          ∗ owns (c : Thread nD τ) M3 fullShare x3 ∗ owns (c : Thread nD τ) M4 fullShare x4
          ∗ owns (c : Thread nD τ) M5 fullShare (outv x0 x1 x2 x4 (scrM.view.readCov [⟨rC, k0_pay2 (View.ld x3 rS)⟩] rC.toLoadRect))
          ∗ owns (c : Thread nD τ) scrM fullShare (scrv x3)) -∗ Q ⟨⟩))
      ⊢ wp frame (wpE (defs₀ (F := F)) Variants.none c none) Set.univ BODY Q := by
  simp only [cc0__attn_kernel_eq_skeleton]; unfold cc0__attn_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, %hf5, H5⟩, ⟨%a', %fa, %hfa, Ha⟩, Hk⟩
  subst hf0 hf1 hf2 hf3 hf4
  sl_exec (disch := first | exact hF)
  sl_step
  iapply Hk
  isplitl [H0]; · iexists f0; isplitr; (· ipureintro; rfl); iexact H0
  isplitl [H1]; · iexists f1; isplitr; (· ipureintro; rfl); iexact H1
  isplitl [H2]; · iexists f2; isplitr; (· ipureintro; rfl); iexact H2
  isplitl [H3]; · iexists f3; isplitr; (· ipureintro; rfl); iexact H3
  isplitl [H4]; · iexists f4; isplitr; (· ipureintro; rfl); iexact H4
  isplitl [H5]; · iexists _; isplitr; swap; (· iexact H5); ipureintro; exact View.read_writes_eq_canon _ _ _ (coverQ _)
  iexists _; isplitr; swap; (· iexact Ha); ipureintro; exact View.read_writes_eq_canon _ _ _ (coverC _)

/-- Any other point: the scratch at `a` is read and left as it was. -/
theorem run_rest (hF : ¬ IsFirst t) (Q : PUnit → sProp 𝕄) :
    iprop(owns (c : Thread nD τ) M0 fullShare x0 ∗ owns (c : Thread nD τ) M1 fullShare x1 ∗ owns (c : Thread nD τ) M2 fullShare x2
        ∗ owns (c : Thread nD τ) M3 fullShare x3 ∗ owns (c : Thread nD τ) M4 fullShare x4 ∗ (∃ d, owns (c : Thread nD τ) M5 fullShare d)
        ∗ owns (c : Thread nD τ) scrM fullShare a
      ∗ (iprop(owns (c : Thread nD τ) M0 fullShare x0 ∗ owns (c : Thread nD τ) M1 fullShare x1 ∗ owns (c : Thread nD τ) M2 fullShare x2
          ∗ owns (c : Thread nD τ) M3 fullShare x3 ∗ owns (c : Thread nD τ) M4 fullShare x4
          ∗ owns (c : Thread nD τ) M5 fullShare (outv x0 x1 x2 x4 (View.ld a rC))
          ∗ owns (c : Thread nD τ) scrM fullShare a) -∗ Q ⟨⟩))
      ⊢ wp frame (wpE (defs₀ (F := F)) Variants.none c none) Set.univ BODY Q := by
  simp only [cc0__attn_kernel_eq_skeleton]; unfold cc0__attn_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, %hf5, H5⟩, ⟨%fa, %hfa, Ha⟩, Hk⟩
  subst hf0 hf1 hf2 hf3 hf4 hfa
  sl_exec (disch := first | exact hF)
  sl_step
  iapply Hk
  isplitl [H0]; · iexists f0; isplitr; (· ipureintro; rfl); iexact H0
  isplitl [H1]; · iexists f1; isplitr; (· ipureintro; rfl); iexact H1
  isplitl [H2]; · iexists f2; isplitr; (· ipureintro; rfl); iexact H2
  isplitl [H3]; · iexists f3; isplitr; (· ipureintro; rfl); iexact H3
  isplitl [H4]; · iexists f4; isplitr; (· ipureintro; rfl); iexact H4
  isplitl [H5]; · iexists _; isplitr; swap; (· iexact H5); ipureintro; exact View.read_writes_eq_canon _ _ _ (coverQ _)
  iexists fa; isplitr; (· ipureintro; rfl); iexact Ha

end Runs

end Cert.Proof.KB

end
-- ==== Proof.KBRun.lean ====
/-
  The run of the whole program: the pipeline's proof data and the launch. The program is the kernel region alone, a
  256-point pipeline over (16 heads, 2 query tiles, 8 batches) with the batch innermost. Five input windows are staged
  in (queries, keys, values, the batch-0 scale block, the batch's own scale block: the last two are windows on ONE
  array, which they hold at complementary shares), one output window is staged out at every point, and the body
  keeps the reciprocal square roots of the batch-0 scale block in a scratch buffer across the eight points of a
  (head, tile) group. The invariant: before the very first point the scratch holds anything; before any later point
  it holds the reciprocal square roots of the batch-0 scale block of the group's first point.
-/
import proofs.«173591_j54795192762892_2_alg».proof.Proof.KBBody
import proofs.«173591_j54795192762892_2_alg».proof.Proof.Gen.Kernel.Points
import Idealize.ShloMosaic.Lib.Pipeline.Frame

set_option maxRecDepth 16384

noncomputable section

namespace Cert.Proof.KB

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Idealize.ShloMosaic.Rounds

variable {F : FTy → Type} [FloatOps F]

local notation "𝕄" => MT nD τ sig Unit (Elt F) ℕ (UR sig nD τ) ℕ

/-! ## The kinds of point -/

/-- A point has batch coordinate 0 iff its number is a multiple of 8. -/
theorem isFirst_iff : ∀ t : Fin cfg0.N, IsFirst t ↔ t.val % 8 = 0 :=
  (by decide +kernel : ∀ t : Fin grid0.N,
    (Scalar.cmpi .ne (Scalar.extui (Scalar.cmpi .eq (BitVec.ofNat 32 ((grid0.coords t) 2).val) 0#32)) 0#32 = 1#1) ↔ t.val % 8 = 0)

/-- The first point of the (head, tile) group of point number `k`. -/
def base (k : ℕ) (hk : k < cfg0.N) : Fin cfg0.N := ⟨k - k % 8, by omega⟩

variable (m : (ℓ : Loc nD τ sig) → Buf (Elt F) ℓ) (ρ : Dev nD → PrngReg)

/-- The buffers as the region finds them: as launched. -/
abbrev V (c : Dev nD) (b : Ref sig .tc) : Buf (Elt F) ((c : Thread nD τ).loc b) := m ((c : Thread nD τ).loc b)

/-- Window `w`'s block at point `t`, read off its array. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The scratch once a group's first point has run. -/
abbrev scrOf (c : Dev nD) (k : ℕ) (hk : k < cfg0.N) : Vec F S512x1024 .f32 := scrv (iblk m c 3 (base k hk))

/-- The block point `t` stores into the output's staging buffer. -/
def outAt (c : Dev nD) (t : Fin cfg0.N) : Vec F S1x1x512x128 .f32 :=
  if t.val % 8 = 0 then
    outv (iblk m c 0 t) (iblk m c 1 t) (iblk m c 2 t) (iblk m c 4 t) (scrM.view.readCov [⟨rC, k0_pay2 (View.ld (iblk m c 3 t) rS)⟩] rC.toLoadRect)
  else outv (iblk m c 0 t) (iblk m c 1 t) (iblk m c 2 t) (iblk m c 4 t) (View.ld (scrOf m c t.val t.isLt) rC)

/-- The invariant's scratch part before point `k`. -/
def scrPart (c : Dev nD) (k : Fin (cfg0.N + 1)) : sProp 𝕄 :=
  if h : k.val = 0 then iprop(∃ a, owns (c : Thread nD τ) scrM fullShare a)
  else iprop(owns (c : Thread nD τ) scrM fullShare (scrOf m c (k.val - 1) (by have := k.isLt; omega)))

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outAt m c t
  Φ k := scrPart m c k
  q w := match w with
    | ⟨0, _⟩ => fullShare
    | ⟨1, _⟩ => fullShare
    | ⟨2, _⟩ => fullShare
    | ⟨3, _⟩ => fullShare.left
    | ⟨4, _⟩ => fullShare.right
    | ⟨5, _⟩ => fullShare
  owed _ := 0

abbrev 𝒱₀ : Variants := Variants.none

/-! ## What the body finds and leaves in each window -/

theorem before_0 (c : Dev nD) (t : Fin cfg0.N) (d) : (dats m 0 c).before 0 t d = iblk m c 0 t :=
  ((dats m 0 c).before_in_eq_fetched 0 rfl (fun _ => rfl) (fun _ _ _ => rfl) (fun t => by dsimp only [dats]; unfold Dat.blockOf iblk; rfl) t d).trans
    (by unfold Dat.fetched Dat.blockOf iblk; dsimp only [dats]; rfl)
theorem before_1 (c : Dev nD) (t : Fin cfg0.N) (d) : (dats m 0 c).before 1 t d = iblk m c 1 t :=
  ((dats m 0 c).before_in_eq_fetched 1 rfl (fun _ => rfl) (fun _ _ _ => rfl) (fun t => by dsimp only [dats]; unfold Dat.blockOf iblk; rfl) t d).trans
    (by unfold Dat.fetched Dat.blockOf iblk; dsimp only [dats]; rfl)
theorem before_2 (c : Dev nD) (t : Fin cfg0.N) (d) : (dats m 0 c).before 2 t d = iblk m c 2 t :=
  ((dats m 0 c).before_in_eq_fetched 2 rfl (fun _ => rfl) (fun _ _ _ => rfl) (fun t => by dsimp only [dats]; unfold Dat.blockOf iblk; rfl) t d).trans
    (by unfold Dat.fetched Dat.blockOf iblk; dsimp only [dats]; rfl)
theorem before_3 (c : Dev nD) (t : Fin cfg0.N) (d) : (dats m 0 c).before 3 t d = iblk m c 3 t :=
  ((dats m 0 c).before_in_eq_fetched 3 rfl (fun _ => rfl) (fun _ _ _ => rfl) (fun t => by dsimp only [dats]; unfold Dat.blockOf iblk; rfl) t d).trans
    (by unfold Dat.fetched Dat.blockOf iblk; dsimp only [dats]; rfl)
theorem before_4 (c : Dev nD) (t : Fin cfg0.N) (d) : (dats m 0 c).before 4 t d = iblk m c 4 t :=
  ((dats m 0 c).before_in_eq_fetched 4 rfl (fun _ => rfl) (fun _ _ _ => rfl) (fun t => by dsimp only [dats]; unfold Dat.blockOf iblk; rfl) t d).trans
    (by unfold Dat.fetched Dat.blockOf iblk; dsimp only [dats]; rfl)
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = outAt m c t := by dsimp only [dats]

theorem owesAt_intro (c : Dev nD) (t : Fin (cfg0.N + 1)) (W' : Waits sig Unit) :
    owes (c : Thread nD τ) 0 W' ⊢ ((dats m 0 c).owesAt () t : sProp 𝕄) := by
  unfold Dat.owesAt Pipeline.owesWithin
  rw [show (dats m 0 c).owed t = 0 from rfl]
  iintro HO; iexists W'; isplitr; · ipureintro; exact fun _ _ => Or.inl trivial
  iexact HO

/-! ## The invariant before and after a point -/

theorem Φ_pre_any (c : Dev nD) (t : Fin cfg0.N) :
    (dats m 0 c).Φ t.castSucc ⊢ iprop(∃ a, owns (c : Thread nD τ) scrM fullShare a) := by
  show scrPart m c _ ⊢ _; unfold scrPart
  split
  · exact .rfl
  · iintro H; iexists _; iexact H
theorem Φ_pre_rest (c : Dev nD) (t : Fin cfg0.N) (h : t.val % 8 ≠ 0) :
    (dats m 0 c).Φ t.castSucc = iprop(owns (c : Thread nD τ) scrM fullShare (scrOf m c t.val t.isLt)) := by
  show scrPart m c _ = _; unfold scrPart
  have h0 : ¬ (t.castSucc : Fin (cfg0.N + 1)).val = 0 := by show ¬ t.val = 0; omega
  rw [dif_neg h0]
  have hb : base ((t.castSucc : Fin (cfg0.N + 1)).val - 1) (by have := t.isLt; show t.val - 1 < _; omega) = base t.val t.isLt := by
    unfold base; apply Fin.ext; show (t.val - 1) - (t.val - 1) % 8 = t.val - t.val % 8; omega
  unfold scrOf; rw [hb]
theorem Φ_post (c : Dev nD) (t : Fin cfg0.N) :
    (dats m 0 c).Φ t.succ = iprop(owns (c : Thread nD τ) scrM fullShare (scrOf m c t.val t.isLt)) := by
  rw [show (dats m 0 c).Φ t.succ = scrPart m c t.succ from rfl]; unfold scrPart
  rw [dif_neg (by show ¬ (t.val + 1) = 0; omega)]
  rfl
theorem scrOf_first (c : Dev nD) (t : Fin cfg0.N) (h : t.val % 8 = 0) : scrOf m c t.val t.isLt = scrv (iblk m c 3 t) := by
  unfold scrOf
  have hb : base t.val t.isLt = t := by unfold base; apply Fin.ext; show t.val - t.val % 8 = t.val; omega
  rw [hb]

/-! ## The body obligation -/

theorem body_obligation (c : Dev nD) : BodyObligation (dats (F := F) m 0 c) (defs₀ (F := F)) 𝒱₀ () Set.univ := fun t => by
  rw [bigSep_W0, bigSep_W0]
  unfold Dat.owesAt Pipeline.owesWithin
  rw [show (dats m 0 c).owed t.castSucc = 0 from rfl]
  simp only [before_0, before_1, before_2, before_3, before_4, after_0, after_1, after_2, after_3, after_4, after_5]
  rw [Φ_post m c t]
  by_cases hF : IsFirst t
  · have h0 : t.val % 8 = 0 := (isFirst_iff t).mp hF
    rw [show outAt m c t = outv (iblk m c 0 t) (iblk m c 1 t) (iblk m c 2 t) (iblk m c 4 t) (scrM.view.readCov [⟨rC, k0_pay2 (View.ld (iblk m c 3 t) rS)⟩] rC.toLoadRect)
      from if_pos h0, scrOf_first m c t h0]
    iintro ⟨Ha, ⟨%Wt, %hW, HO⟩, ⟨%d0, H0⟩, ⟨%d1, H1⟩, ⟨%d2, H2⟩, ⟨%d3, H3⟩, ⟨%d4, H4⟩, ⟨%d5, H5⟩⟩
    ihave Ha' := (Φ_pre_any m c t) $$ Ha
    iapply (run_first c t (st0_0 t) (hstage0_0 ((cfg0.slots t 0).cast nbuf0_0)) (st0_1 t) (hstage0_1 ((cfg0.slots t 1).cast nbuf0_1))
      (st0_2 t) (hstage0_2 ((cfg0.slots t 2).cast nbuf0_2)) (st0_3 t) (hstage0_3 ((cfg0.slots t 3).cast nbuf0_3))
      (st0_4 t) (hstage0_4 ((cfg0.slots t 4).cast nbuf0_4)) (st0_5 t) (hstage0_5 ((cfg0.slots t 5).cast nbuf0_5))
      (iblk m c 0 t) (iblk m c 1 t) (iblk m c 2 t) (iblk m c 3 t) (iblk m c 4 t) hF)
    isplitl [H0]; · iexact H0
    isplitl [H1]; · iexact H1
    isplitl [H2]; · iexact H2
    isplitl [H3]; · iexact H3
    isplitl [H4]; · iexact H4
    isplitl [H5]; · iexists _; iexact H5
    isplitl [Ha']; · iexact Ha'
    iintro ⟨H0, H1, H2, H3, H4, H5, Ha⟩
    isplitl [Ha]; · iexact Ha
    isplitl [HO]; · iexists Wt; isplitr; (· ipureintro; exact fun _ _ => Or.inl trivial); iexact HO
    isplitl [H0]; · iexact H0
    isplitl [H1]; · iexact H1
    isplitl [H2]; · iexact H2
    isplitl [H3]; · iexact H3
    isplitl [H4]; · iexact H4
    iexact H5
  · have h0 : t.val % 8 ≠ 0 := fun h => hF ((isFirst_iff t).mpr h)
    rw [show outAt m c t = outv (iblk m c 0 t) (iblk m c 1 t) (iblk m c 2 t) (iblk m c 4 t) (View.ld (scrOf m c t.val t.isLt) rC)
      from if_neg h0, Φ_pre_rest m c t h0]
    iintro ⟨Ha, ⟨%Wt, %hW, HO⟩, ⟨%d0, H0⟩, ⟨%d1, H1⟩, ⟨%d2, H2⟩, ⟨%d3, H3⟩, ⟨%d4, H4⟩, ⟨%d5, H5⟩⟩
    iapply (run_rest c t (st0_0 t) (hstage0_0 ((cfg0.slots t 0).cast nbuf0_0)) (st0_1 t) (hstage0_1 ((cfg0.slots t 1).cast nbuf0_1))
      (st0_2 t) (hstage0_2 ((cfg0.slots t 2).cast nbuf0_2)) (st0_3 t) (hstage0_3 ((cfg0.slots t 3).cast nbuf0_3))
      (st0_4 t) (hstage0_4 ((cfg0.slots t 4).cast nbuf0_4)) (st0_5 t) (hstage0_5 ((cfg0.slots t 5).cast nbuf0_5))
      (iblk m c 0 t) (iblk m c 1 t) (iblk m c 2 t) (iblk m c 3 t) (iblk m c 4 t) (scrOf m c t.val t.isLt) hF)
    isplitl [H0]; · iexact H0
    isplitl [H1]; · iexact H1
    isplitl [H2]; · iexact H2
    isplitl [H3]; · iexact H3
    isplitl [H4]; · iexact H4
    isplitl [H5]; · iexists _; iexact H5
    isplitl [Ha]; · iexact Ha
    iintro ⟨H0, H1, H2, H3, H4, H5, Ha⟩
    isplitl [Ha]; · iexact Ha
    isplitl [HO]; · iexists Wt; isplitr; (· ipureintro; exact fun _ _ => Or.inl trivial); iexact HO
    isplitl [H0]; · iexact H0
    isplitl [H1]; · iexact H1
    isplitl [H2]; · iexact H2
    isplitl [H3]; · iexact H3
    isplitl [H4]; · iexact H4
    iexact H5

end Cert.Proof.KB

end
-- ==== Proof.KBLaunch.lean ====
/-
  The launch. The program's unscoped buffers are the four argument arrays and the result; the scale array is read by
  two windows, which hold it at the two halves of the full share, every other array at the full share. The scratch
  enters the invariant at whatever it holds and leaves it the same way. The run's post: every window's array at the
  proof data's account of it after the last point — an input as launched, the result overwritten block by block.
-/
import proofs.«173591_j54795192762892_2_alg».proof.Proof.KBRun
import Idealize.ShloMosaic.Lib.Pipeline.Launch
import Idealize.ShloMosaic.Lib.Pipeline.Kit

set_option maxRecDepth 16384

noncomputable section

namespace Cert.Proof.KB

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Idealize.ShloMosaic.Rounds

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers behind the windows' arrays, each whole at the full share, dealt to the windows: the scale array to
    its two windows at the two halves of the full share. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  unfold Pipeline.arrBufs Dat.arrays
  rw [bigSep_W0, bigSep_eq_bigSepL_of_eq [main_arg0, main_arg1, main_arg2, main_arg3, main_v0] (by decide) (by decide)]
  simp only [bigSepL_cons]
  have e0 : (dats m 0 c).share 0 = fullShare := rfl
  have e1 : (dats m 0 c).share 1 = fullShare := rfl
  have e2 : (dats m 0 c).share 2 = fullShare := rfl
  have e3 : (dats m 0 c).share 3 = fullShare.left := rfl
  have e4 : (dats m 0 c).share 4 = fullShare.right := rfl
  have e5 : (dats m 0 c).share 5 = fullShare := rfl
  rw [e0, e1, e2, e3, e4, e5, (Memref.isWhole_whole main_arg0).set_eq_univ, (Memref.isWhole_whole main_arg1).set_eq_univ,
    (Memref.isWhole_whole main_arg2).set_eq_univ, (Memref.isWhole_whole main_arg3).set_eq_univ, (Memref.isWhole_whole main_v0).set_eq_univ]
  show iprop((((c : Thread nD τ).loc main_arg0) ↦{fullShare} V m c main_arg0) ∗ (((c : Thread nD τ).loc main_arg1) ↦{fullShare} V m c main_arg1)
    ∗ (((c : Thread nD τ).loc main_arg2) ↦{fullShare} V m c main_arg2) ∗ (((c : Thread nD τ).loc main_arg3) ↦{fullShare} V m c main_arg3)
    ∗ (((c : Thread nD τ).loc main_v0) ↦{fullShare} V m c main_v0) ∗ emp) ⊢ _
  iintro ⟨H0, H1, H2, H3, H5, -⟩
  have hs : ((((c : Thread nD τ).loc main_arg3) ↦{fullShare} V m c main_arg3) : sProp 𝕄)
      ⊢ iprop((((c : Thread nD τ).loc main_arg3) ↦{fullShare.left} V m c main_arg3) ∗ (((c : Thread nD τ).loc main_arg3) ↦{fullShare.right} V m c main_arg3)) :=
    (pointsTo_share (PosShare.mem_left_op_right fullShare)).1
  ihave H34 := hs $$ H3
  icases H34 with ⟨H3, H4⟩
  isplitl [H0]; · iexact H0
  isplitl [H1]; · iexact H1
  isplitl [H2]; · iexact H2
  isplitl [H3]; · iexact H3
  isplitl [H4]; · iexact H4
  iexact H5

/-- The run's post: every window's array at the proof data's account of it after the last point. -/
def RunPost (r : PUnit × MemSt nD τ sig (Elt F)) : Prop :=
  ∀ c : Dev nD, ∀ w : Fin cfg0.W, r.2.mem ((spec0 w).arr.view.loc (c.tc : Thread nD τ)) = (dats m 0 c).arrAt w cfg0.N

theorem run_main : θ_run defs (onTc (τ := τ) (main (F := F))) (s₀ m ρ) (RunPost m) :=
  Pipeline.θ_run_region_noSem_shared cfgs (dats m) () cellOf_inj 0 winFacts₀0 emb₁ defs₀ 𝒱₀ m ρ main
    (hbody := fun c => (body_obligation m c).loose) (hne := block_pos0) (harr := arr_whole0) (hstage := stage_whole0)
    (howed := fun _ _ => rfl)
    (u₀ := initOf (Pipeline.cells cfgs cellOf_inj) (Pipeline.launchToks cfgs cellOf_inj)) (hu₀ := .rfl)
    (V := V m) (hmain := Pipeline.hmain_region cfgs 0 defs₀ 𝒱₀ m main fun c => (main_chain c).trans rfl)
    (hsplit := hsplit m)
    (X := fun _ => iprop(emp)) (Y := fun _ => iprop(emp)) (Z := fun _ => iprop(emp))
    (hX := fun c => by rw [unscopedRest0_eq]; iintro -; isplitl <;> iempintro)
    (hin := fun c => by
      have e : scrPart m c 0 = iprop(∃ a, owns (c : Thread nD τ) scrM fullShare a) := by unfold scrPart; exact dif_pos rfl
      rw [scopedRest0_eq, show (dats m 0 c).Φ 0 = scrPart m c 0 from rfl, e]
      iintro ⟨-, ⟨%f, Hf⟩⟩
      iexists f; rw [owns_whole_eq]; iexists f; isplitr; (· ipureintro; rfl); iexact Hf)
    (hout := fun c => by
      rw [scopedRest0_eq, show (dats m 0 c).Φ (Fin.last cfg0.N) = scrPart m c (Fin.last cfg0.N) from rfl]
      unfold scrPart; rw [dif_neg (by have := N_0; show ¬ grid0.N = 0; omega)]
      simp only [owns_whole_eq]
      iintro ⟨%f, %hf, Hf⟩
      isplitr; · iempintro
      iexists f; iexact Hf)
    (QY := fun _ _ => True)
    (hY := fun c s' => by
      iintro ⟨-, -, HSI⟩; imodintro
      isplitr; · ipureintro; trivial
      iexact HSI)
    (hQ := fun s h c => (h c).1)

/-- info: 'Cert.Proof.KB.run_main' depends on axioms: [propext, Classical.choice, Quot.sound] -/
#guard_msgs in #print axioms run_main

variable {m ρ}

theorem final_arg0 {r : PUnit × MemSt nD τ sig (Elt F)} (h : RunPost m r) (c : Dev nD) :
    r.2.mem ((c : Thread nD τ).loc main_arg0) = m ((c : Thread nD τ).loc main_arg0) :=
  (h c 0).trans ((dats m 0 c).arrAt_in 0 rfl _)
theorem final_arg1 {r : PUnit × MemSt nD τ sig (Elt F)} (h : RunPost m r) (c : Dev nD) :
    r.2.mem ((c : Thread nD τ).loc main_arg1) = m ((c : Thread nD τ).loc main_arg1) :=
  (h c 1).trans ((dats m 0 c).arrAt_in 1 rfl _)
theorem final_arg2 {r : PUnit × MemSt nD τ sig (Elt F)} (h : RunPost m r) (c : Dev nD) :
    r.2.mem ((c : Thread nD τ).loc main_arg2) = m ((c : Thread nD τ).loc main_arg2) :=
  (h c 2).trans ((dats m 0 c).arrAt_in 2 rfl _)
theorem final_arg3 {r : PUnit × MemSt nD τ sig (Elt F)} (h : RunPost m r) (c : Dev nD) :
    r.2.mem ((c : Thread nD τ).loc main_arg3) = m ((c : Thread nD τ).loc main_arg3) :=
  (h c 3).trans ((dats m 0 c).arrAt_in 3 rfl _)
theorem final_v0 {r : PUnit × MemSt nD τ sig (Elt F)} (h : RunPost m r) (c : Dev nD) :
    r.2.mem ((c : Thread nD τ).loc main_v0) = (dats m 0 c).arrAt 5 cfg0.N :=
  h c 5

/-- The frame: the program runs to the end and leaves its four argument arrays as launched. -/
theorem frame (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨final_arg0 h c, final_arg1 h c, final_arg2 h c, final_arg3 h c⟩) (run_main m ρ)

end Cert.Proof.KB

end
-- ==== Proof.KIBody.lean ====
/-
  The kernel body at a symbolic grid point. The grid is (16 heads, 2 query tiles, 8 batches), the batch innermost.
  At a point whose batch coordinate is 0 the body first overwrites its scratch with the reciprocal square roots of the
  batch-0 scale block; at every point it then reads the query, key, value and scale blocks and the scratch, and stores
  one output block. Two runs, one per kind of point: each leaves the five input buffers as they were, the scratch at
  the reciprocal square roots (first kind) or untouched (other kind), and the output buffer at the stored block.
-/
import proofs.«173591_j54795192762892_2_alg».proof.Proof.Gen.KernelIdeal
import proofs.«173591_j54795192762892_2_alg».proof.Proof.Gen.KernelIdeal.Skeleton
import proofs.«173591_j54795192762892_2_alg».proof.Proof.Gen.KernelIdeal.Launch
import Idealize.ShloMosaic.Lib.Writes
import Idealize.ShloMosaic.Lib.Pipeline.FrameBody
import Idealize.ShloMosaic.Lib.Tactic

set_option maxRecDepth 16384

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The scratch memref, whole. -/
abbrev scrM : Memref sig .tc .vmem S512x1024 .f32 := Memref.whole cc0_scratch0

/-- The rectangles the accesses go through: each the whole buffer at zero offsets. -/
abbrev rQ : Rect S1x1x512x128 := Rect.unit (s := S1x1x512x128) ![0, 0, 0, 0] S1x1x512x128.size inb_S1x1x512x128_S1x1x512x128_0_0_0_0
abbrev rK : Rect S1x1x1024x128 := Rect.unit (s := S1x1x1024x128) ![0, 0, 0, 0] S1x1x1024x128.size inb_S1x1x1024x128_S1x1x1024x128_0_0_0_0
abbrev rS : Rect S1x1x512x1024 := Rect.unit (s := S1x1x512x1024) ![0, 0, 0, 0] S1x1x512x1024.size inb_S1x1x512x1024_S1x1x512x1024_0_0_0_0
abbrev rC : Rect S512x1024 := Rect.unit (s := S512x1024) ![0, 0] S512x1024.size inb_S512x1024_S512x1024_0_0

/-- "The batch coordinate is 0", as the body computes it. -/
abbrev IsFirst (t : Fin cfg0.N) : Prop :=
  Scalar.cmpi .ne (Scalar.extui (Scalar.cmpi .eq (BitVec.ofNat 32 ((grid0.coords t) 2).val) 0#32)) 0#32 = 1#1

/-- The scratch after a first point: the reciprocal square roots of the batch-0 scale block. -/
abbrev scrv (x3 : Vec F S1x1x512x1024 .f32) : Vec F S512x1024 .f32 :=
  View.canon [⟨rC, k0_pay2 (View.ld x3 rS)⟩]
/-- The output block, from the four blocks read and the scratch as the body reads it back. -/
abbrev outv (x0 : Vec F S1x1x512x128 .f32) (x1 x2 : Vec F S1x1x1024x128 .f32) (x4 : Vec F S1x1x512x1024 .f32) (a : Vec F S512x1024 .f32) :
    Vec F S1x1x512x128 .f32 :=
  View.canon [⟨rQ, k0_pay1 (k0_pay3 (View.ld x0 rQ) (View.ld x1 rK) (View.ld x2 rK) (View.ld x4 rS) a)⟩]

omit [FloatOps F] in
theorem coverC (p : Vec F S512x1024 .f32) (y : S512x1024.Idx) : ∃ pc ∈ ([⟨rC, p⟩] : List (View.Piece (Elt F) S512x1024 .f32)), y ∈ pc.1.set :=
  View.cover_of_tiled [⟨rC, p⟩] S512x1024.size (by rfl) y
omit [FloatOps F] in
theorem coverQ (p : Vec F S1x1x512x128 .f32) (y : S1x1x512x128.Idx) : ∃ pc ∈ ([⟨rQ, p⟩] : List (View.Piece (Elt F) S1x1x512x128 .f32)), y ∈ pc.1.set :=
  View.cover_of_tiled [⟨rQ, p⟩] S1x1x512x128.size (by rfl) y

section Runs

variable (c : Dev nD) (t : Fin cfg0.N)
  (M0 : Memref sig .tc .vmem S1x1x512x128 .f32) (h0 : M0.IsWhole) (M1 : Memref sig .tc .vmem S1x1x1024x128 .f32) (h1 : M1.IsWhole)
  (M2 : Memref sig .tc .vmem S1x1x1024x128 .f32) (h2 : M2.IsWhole) (M3 : Memref sig .tc .vmem S1x1x512x1024 .f32) (h3 : M3.IsWhole)
  (M4 : Memref sig .tc .vmem S1x1x512x1024 .f32) (h4 : M4.IsWhole) (M5 : Memref sig .tc .vmem S1x1x512x128 .f32) (h5 : M5.IsWhole)
  (x0 : Vec F S1x1x512x128 .f32) (x1 x2 : Vec F S1x1x1024x128 .f32) (x3 x4 : Vec F S1x1x512x1024 .f32) (a : Vec F S512x1024 .f32)

local notation "BODY" => cc0__attn_kernel (grid0.coords t) M0 h0 M1 h1 M2 h2 M3 h3 M4 h4 M5 h5 (Memref.whole cc0_scratch0) (Memref.isWhole_whole _)

/-- A first point: the scratch, whatever it held, ends at `scrv x3`, and the output block is computed from it as read back. -/
theorem run_first (hF : IsFirst t) (Q : PUnit → sProp 𝕄) :
    iprop(owns (c : Thread nD τ) M0 fullShare x0 ∗ owns (c : Thread nD τ) M1 fullShare x1 ∗ owns (c : Thread nD τ) M2 fullShare x2
        ∗ owns (c : Thread nD τ) M3 fullShare x3 ∗ owns (c : Thread nD τ) M4 fullShare x4 ∗ (∃ d, owns (c : Thread nD τ) M5 fullShare d)
        ∗ (∃ a', owns (c : Thread nD τ) scrM fullShare a')
      ∗ (iprop(owns (c : Thread nD τ) M0 fullShare x0 ∗ owns (c : Thread nD τ) M1 fullShare x1 ∗ owns (c : Thread nD τ) M2 fullShare x2
          ∗ owns (c : Thread nD τ) M3 fullShare x3 ∗ owns (c : Thread nD τ) M4 fullShare x4
          ∗ owns (c : Thread nD τ) M5 fullShare (outv x0 x1 x2 x4 (scrM.view.readCov [⟨rC, k0_pay2 (View.ld x3 rS)⟩] rC.toLoadRect))
          ∗ owns (c : Thread nD τ) scrM fullShare (scrv x3)) -∗ Q ⟨⟩))
      ⊢ wp frame (wpE (defs₀ (F := F)) Variants.none c none) Set.univ BODY Q := by
  simp only [cc0__attn_kernel_eq_skeleton]; unfold cc0__attn_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, %hf5, H5⟩, ⟨%a', %fa, %hfa, Ha⟩, Hk⟩
  subst hf0 hf1 hf2 hf3 hf4
  sl_exec (disch := first | exact hF)
  sl_step
  iapply Hk
  isplitl [H0]; · iexists f0; isplitr; (· ipureintro; rfl); iexact H0
  isplitl [H1]; · iexists f1; isplitr; (· ipureintro; rfl); iexact H1
  isplitl [H2]; · iexists f2; isplitr; (· ipureintro; rfl); iexact H2
  isplitl [H3]; · iexists f3; isplitr; (· ipureintro; rfl); iexact H3
  isplitl [H4]; · iexists f4; isplitr; (· ipureintro; rfl); iexact H4
  isplitl [H5]; · iexists _; isplitr; swap; (· iexact H5); ipureintro; exact View.read_writes_eq_canon _ _ _ (coverQ _)
  iexists _; isplitr; swap; (· iexact Ha); ipureintro; exact View.read_writes_eq_canon _ _ _ (coverC _)

/-- Any other point: the scratch at `a` is read and left as it was. -/
theorem run_rest (hF : ¬ IsFirst t) (Q : PUnit → sProp 𝕄) :
    iprop(owns (c : Thread nD τ) M0 fullShare x0 ∗ owns (c : Thread nD τ) M1 fullShare x1 ∗ owns (c : Thread nD τ) M2 fullShare x2
        ∗ owns (c : Thread nD τ) M3 fullShare x3 ∗ owns (c : Thread nD τ) M4 fullShare x4 ∗ (∃ d, owns (c : Thread nD τ) M5 fullShare d)
        ∗ owns (c : Thread nD τ) scrM fullShare a
      ∗ (iprop(owns (c : Thread nD τ) M0 fullShare x0 ∗ owns (c : Thread nD τ) M1 fullShare x1 ∗ owns (c : Thread nD τ) M2 fullShare x2
          ∗ owns (c : Thread nD τ) M3 fullShare x3 ∗ owns (c : Thread nD τ) M4 fullShare x4
          ∗ owns (c : Thread nD τ) M5 fullShare (outv x0 x1 x2 x4 (View.ld a rC))
          ∗ owns (c : Thread nD τ) scrM fullShare a) -∗ Q ⟨⟩))
      ⊢ wp frame (wpE (defs₀ (F := F)) Variants.none c none) Set.univ BODY Q := by
  simp only [cc0__attn_kernel_eq_skeleton]; unfold cc0__attn_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, %hf5, H5⟩, ⟨%fa, %hfa, Ha⟩, Hk⟩
  subst hf0 hf1 hf2 hf3 hf4 hfa
  sl_exec (disch := first | exact hF)
  sl_step
  iapply Hk
  isplitl [H0]; · iexists f0; isplitr; (· ipureintro; rfl); iexact H0
  isplitl [H1]; · iexists f1; isplitr; (· ipureintro; rfl); iexact H1
  isplitl [H2]; · iexists f2; isplitr; (· ipureintro; rfl); iexact H2
  isplitl [H3]; · iexists f3; isplitr; (· ipureintro; rfl); iexact H3
  isplitl [H4]; · iexists f4; isplitr; (· ipureintro; rfl); iexact H4
  isplitl [H5]; · iexists _; isplitr; swap; (· iexact H5); ipureintro; exact View.read_writes_eq_canon _ _ _ (coverQ _)
  iexists fa; isplitr; (· ipureintro; rfl); iexact Ha

end Runs

end Cert.Proof.KI

end
-- ==== Proof.KIRun.lean ====
/-
  The run of the whole program: the pipeline's proof data and the launch. The program is the kernel region alone, a
  256-point pipeline over (16 heads, 2 query tiles, 8 batches) with the batch innermost. Five input windows are staged
  in (queries, keys, values, the batch-0 scale block, the batch's own scale block: the last two are windows on ONE
  array, which they hold at complementary shares), one output window is staged out at every point, and the body
  keeps the reciprocal square roots of the batch-0 scale block in a scratch buffer across the eight points of a
  (head, tile) group. The invariant: before the very first point the scratch holds anything; before any later point
  it holds the reciprocal square roots of the batch-0 scale block of the group's first point.
-/
import proofs.«173591_j54795192762892_2_alg».proof.Proof.KIBody
import proofs.«173591_j54795192762892_2_alg».proof.Proof.Gen.KernelIdeal.Points
import Idealize.ShloMosaic.Lib.Pipeline.Frame

set_option maxRecDepth 16384

noncomputable section

namespace Cert.Proof.KI

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Idealize.ShloMosaic.Rounds

variable {F : FTy → Type} [FloatOps F]

local notation "𝕄" => MT nD τ sig Unit (Elt F) ℕ (UR sig nD τ) ℕ

/-! ## The kinds of point -/

/-- A point has batch coordinate 0 iff its number is a multiple of 8. -/
theorem isFirst_iff : ∀ t : Fin cfg0.N, IsFirst t ↔ t.val % 8 = 0 :=
  (by decide +kernel : ∀ t : Fin grid0.N,
    (Scalar.cmpi .ne (Scalar.extui (Scalar.cmpi .eq (BitVec.ofNat 32 ((grid0.coords t) 2).val) 0#32)) 0#32 = 1#1) ↔ t.val % 8 = 0)

/-- The first point of the (head, tile) group of point number `k`. -/
def base (k : ℕ) (hk : k < cfg0.N) : Fin cfg0.N := ⟨k - k % 8, by omega⟩

variable (m : (ℓ : Loc nD τ sig) → Buf (Elt F) ℓ) (ρ : Dev nD → PrngReg)

/-- The buffers as the region finds them: as launched. -/
abbrev V (c : Dev nD) (b : Ref sig .tc) : Buf (Elt F) ((c : Thread nD τ).loc b) := m ((c : Thread nD τ).loc b)

/-- Window `w`'s block at point `t`, read off its array. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The scratch once a group's first point has run. -/
abbrev scrOf (c : Dev nD) (k : ℕ) (hk : k < cfg0.N) : Vec F S512x1024 .f32 := scrv (iblk m c 3 (base k hk))

/-- The block point `t` stores into the output's staging buffer. -/
def outAt (c : Dev nD) (t : Fin cfg0.N) : Vec F S1x1x512x128 .f32 :=
  if t.val % 8 = 0 then
    outv (iblk m c 0 t) (iblk m c 1 t) (iblk m c 2 t) (iblk m c 4 t) (scrM.view.readCov [⟨rC, k0_pay2 (View.ld (iblk m c 3 t) rS)⟩] rC.toLoadRect)
  else outv (iblk m c 0 t) (iblk m c 1 t) (iblk m c 2 t) (iblk m c 4 t) (View.ld (scrOf m c t.val t.isLt) rC)

/-- The invariant's scratch part before point `k`. -/
def scrPart (c : Dev nD) (k : Fin (cfg0.N + 1)) : sProp 𝕄 :=
  if h : k.val = 0 then iprop(∃ a, owns (c : Thread nD τ) scrM fullShare a)
  else iprop(owns (c : Thread nD τ) scrM fullShare (scrOf m c (k.val - 1) (by have := k.isLt; omega)))

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outAt m c t
  Φ k := scrPart m c k
  q w := match w with
    | ⟨0, _⟩ => fullShare
    | ⟨1, _⟩ => fullShare
    | ⟨2, _⟩ => fullShare
    | ⟨3, _⟩ => fullShare.left
    | ⟨4, _⟩ => fullShare.right
    | ⟨5, _⟩ => fullShare
  owed _ := 0

abbrev 𝒱₀ : Variants := Variants.none

/-! ## What the body finds and leaves in each window -/

theorem before_0 (c : Dev nD) (t : Fin cfg0.N) (d) : (dats m 0 c).before 0 t d = iblk m c 0 t :=
  ((dats m 0 c).before_in_eq_fetched 0 rfl (fun _ => rfl) (fun _ _ _ => rfl) (fun t => by dsimp only [dats]; unfold Dat.blockOf iblk; rfl) t d).trans
    (by unfold Dat.fetched Dat.blockOf iblk; dsimp only [dats]; rfl)
theorem before_1 (c : Dev nD) (t : Fin cfg0.N) (d) : (dats m 0 c).before 1 t d = iblk m c 1 t :=
  ((dats m 0 c).before_in_eq_fetched 1 rfl (fun _ => rfl) (fun _ _ _ => rfl) (fun t => by dsimp only [dats]; unfold Dat.blockOf iblk; rfl) t d).trans
    (by unfold Dat.fetched Dat.blockOf iblk; dsimp only [dats]; rfl)
theorem before_2 (c : Dev nD) (t : Fin cfg0.N) (d) : (dats m 0 c).before 2 t d = iblk m c 2 t :=
  ((dats m 0 c).before_in_eq_fetched 2 rfl (fun _ => rfl) (fun _ _ _ => rfl) (fun t => by dsimp only [dats]; unfold Dat.blockOf iblk; rfl) t d).trans
    (by unfold Dat.fetched Dat.blockOf iblk; dsimp only [dats]; rfl)
theorem before_3 (c : Dev nD) (t : Fin cfg0.N) (d) : (dats m 0 c).before 3 t d = iblk m c 3 t :=
  ((dats m 0 c).before_in_eq_fetched 3 rfl (fun _ => rfl) (fun _ _ _ => rfl) (fun t => by dsimp only [dats]; unfold Dat.blockOf iblk; rfl) t d).trans
    (by unfold Dat.fetched Dat.blockOf iblk; dsimp only [dats]; rfl)
theorem before_4 (c : Dev nD) (t : Fin cfg0.N) (d) : (dats m 0 c).before 4 t d = iblk m c 4 t :=
  ((dats m 0 c).before_in_eq_fetched 4 rfl (fun _ => rfl) (fun _ _ _ => rfl) (fun t => by dsimp only [dats]; unfold Dat.blockOf iblk; rfl) t d).trans
    (by unfold Dat.fetched Dat.blockOf iblk; dsimp only [dats]; rfl)
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = outAt m c t := by dsimp only [dats]

theorem owesAt_intro (c : Dev nD) (t : Fin (cfg0.N + 1)) (W' : Waits sig Unit) :
    owes (c : Thread nD τ) 0 W' ⊢ ((dats m 0 c).owesAt () t : sProp 𝕄) := by
  unfold Dat.owesAt Pipeline.owesWithin
  rw [show (dats m 0 c).owed t = 0 from rfl]
  iintro HO; iexists W'; isplitr; · ipureintro; exact fun _ _ => Or.inl trivial
  iexact HO

/-! ## The invariant before and after a point -/

theorem Φ_pre_any (c : Dev nD) (t : Fin cfg0.N) :
    (dats m 0 c).Φ t.castSucc ⊢ iprop(∃ a, owns (c : Thread nD τ) scrM fullShare a) := by
  show scrPart m c _ ⊢ _; unfold scrPart
  split
  · exact .rfl
  · iintro H; iexists _; iexact H
theorem Φ_pre_rest (c : Dev nD) (t : Fin cfg0.N) (h : t.val % 8 ≠ 0) :
    (dats m 0 c).Φ t.castSucc = iprop(owns (c : Thread nD τ) scrM fullShare (scrOf m c t.val t.isLt)) := by
  show scrPart m c _ = _; unfold scrPart
  have h0 : ¬ (t.castSucc : Fin (cfg0.N + 1)).val = 0 := by show ¬ t.val = 0; omega
  rw [dif_neg h0]
  have hb : base ((t.castSucc : Fin (cfg0.N + 1)).val - 1) (by have := t.isLt; show t.val - 1 < _; omega) = base t.val t.isLt := by
    unfold base; apply Fin.ext; show (t.val - 1) - (t.val - 1) % 8 = t.val - t.val % 8; omega
  unfold scrOf; rw [hb]
theorem Φ_post (c : Dev nD) (t : Fin cfg0.N) :
    (dats m 0 c).Φ t.succ = iprop(owns (c : Thread nD τ) scrM fullShare (scrOf m c t.val t.isLt)) := by
  rw [show (dats m 0 c).Φ t.succ = scrPart m c t.succ from rfl]; unfold scrPart
  rw [dif_neg (by show ¬ (t.val + 1) = 0; omega)]
  rfl
theorem scrOf_first (c : Dev nD) (t : Fin cfg0.N) (h : t.val % 8 = 0) : scrOf m c t.val t.isLt = scrv (iblk m c 3 t) := by
  unfold scrOf
  have hb : base t.val t.isLt = t := by unfold base; apply Fin.ext; show t.val - t.val % 8 = t.val; omega
  rw [hb]

/-! ## The body obligation -/

theorem body_obligation (c : Dev nD) : BodyObligation (dats (F := F) m 0 c) (defs₀ (F := F)) 𝒱₀ () Set.univ := fun t => by
  rw [bigSep_W0, bigSep_W0]
  unfold Dat.owesAt Pipeline.owesWithin
  rw [show (dats m 0 c).owed t.castSucc = 0 from rfl]
  simp only [before_0, before_1, before_2, before_3, before_4, after_0, after_1, after_2, after_3, after_4, after_5]
  rw [Φ_post m c t]
  by_cases hF : IsFirst t
  · have h0 : t.val % 8 = 0 := (isFirst_iff t).mp hF
    rw [show outAt m c t = outv (iblk m c 0 t) (iblk m c 1 t) (iblk m c 2 t) (iblk m c 4 t) (scrM.view.readCov [⟨rC, k0_pay2 (View.ld (iblk m c 3 t) rS)⟩] rC.toLoadRect)
      from if_pos h0, scrOf_first m c t h0]
    iintro ⟨Ha, ⟨%Wt, %hW, HO⟩, ⟨%d0, H0⟩, ⟨%d1, H1⟩, ⟨%d2, H2⟩, ⟨%d3, H3⟩, ⟨%d4, H4⟩, ⟨%d5, H5⟩⟩
    ihave Ha' := (Φ_pre_any m c t) $$ Ha
    iapply (run_first c t (st0_0 t) (hstage0_0 ((cfg0.slots t 0).cast nbuf0_0)) (st0_1 t) (hstage0_1 ((cfg0.slots t 1).cast nbuf0_1))
      (st0_2 t) (hstage0_2 ((cfg0.slots t 2).cast nbuf0_2)) (st0_3 t) (hstage0_3 ((cfg0.slots t 3).cast nbuf0_3))
      (st0_4 t) (hstage0_4 ((cfg0.slots t 4).cast nbuf0_4)) (st0_5 t) (hstage0_5 ((cfg0.slots t 5).cast nbuf0_5))
      (iblk m c 0 t) (iblk m c 1 t) (iblk m c 2 t) (iblk m c 3 t) (iblk m c 4 t) hF)
    isplitl [H0]; · iexact H0
    isplitl [H1]; · iexact H1
    isplitl [H2]; · iexact H2
    isplitl [H3]; · iexact H3
    isplitl [H4]; · iexact H4
    isplitl [H5]; · iexists _; iexact H5
    isplitl [Ha']; · iexact Ha'
    iintro ⟨H0, H1, H2, H3, H4, H5, Ha⟩
    isplitl [Ha]; · iexact Ha
    isplitl [HO]; · iexists Wt; isplitr; (· ipureintro; exact fun _ _ => Or.inl trivial); iexact HO
    isplitl [H0]; · iexact H0
    isplitl [H1]; · iexact H1
    isplitl [H2]; · iexact H2
    isplitl [H3]; · iexact H3
    isplitl [H4]; · iexact H4
    iexact H5
  · have h0 : t.val % 8 ≠ 0 := fun h => hF ((isFirst_iff t).mpr h)
    rw [show outAt m c t = outv (iblk m c 0 t) (iblk m c 1 t) (iblk m c 2 t) (iblk m c 4 t) (View.ld (scrOf m c t.val t.isLt) rC)
      from if_neg h0, Φ_pre_rest m c t h0]
    iintro ⟨Ha, ⟨%Wt, %hW, HO⟩, ⟨%d0, H0⟩, ⟨%d1, H1⟩, ⟨%d2, H2⟩, ⟨%d3, H3⟩, ⟨%d4, H4⟩, ⟨%d5, H5⟩⟩
    iapply (run_rest c t (st0_0 t) (hstage0_0 ((cfg0.slots t 0).cast nbuf0_0)) (st0_1 t) (hstage0_1 ((cfg0.slots t 1).cast nbuf0_1))
      (st0_2 t) (hstage0_2 ((cfg0.slots t 2).cast nbuf0_2)) (st0_3 t) (hstage0_3 ((cfg0.slots t 3).cast nbuf0_3))
      (st0_4 t) (hstage0_4 ((cfg0.slots t 4).cast nbuf0_4)) (st0_5 t) (hstage0_5 ((cfg0.slots t 5).cast nbuf0_5))
      (iblk m c 0 t) (iblk m c 1 t) (iblk m c 2 t) (iblk m c 3 t) (iblk m c 4 t) (scrOf m c t.val t.isLt) hF)
    isplitl [H0]; · iexact H0
    isplitl [H1]; · iexact H1
    isplitl [H2]; · iexact H2
    isplitl [H3]; · iexact H3
    isplitl [H4]; · iexact H4
    isplitl [H5]; · iexists _; iexact H5
    isplitl [Ha]; · iexact Ha
    iintro ⟨H0, H1, H2, H3, H4, H5, Ha⟩
    isplitl [Ha]; · iexact Ha
    isplitl [HO]; · iexists Wt; isplitr; (· ipureintro; exact fun _ _ => Or.inl trivial); iexact HO
    isplitl [H0]; · iexact H0
    isplitl [H1]; · iexact H1
    isplitl [H2]; · iexact H2
    isplitl [H3]; · iexact H3
    isplitl [H4]; · iexact H4
    iexact H5

end Cert.Proof.KI

end
-- ==== Proof.KILaunch.lean ====
/-
  The launch. The program's unscoped buffers are the four argument arrays and the result; the scale array is read by
  two windows, which hold it at the two halves of the full share, every other array at the full share. The scratch
  enters the invariant at whatever it holds and leaves it the same way. The run's post: every window's array at the
  proof data's account of it after the last point — an input as launched, the result overwritten block by block.
-/
import proofs.«173591_j54795192762892_2_alg».proof.Proof.KIRun
import Idealize.ShloMosaic.Lib.Pipeline.Launch
import Idealize.ShloMosaic.Lib.Pipeline.Kit

set_option maxRecDepth 16384

noncomputable section

namespace Cert.Proof.KI

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Idealize.ShloMosaic.Rounds

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers behind the windows' arrays, each whole at the full share, dealt to the windows: the scale array to
    its two windows at the two halves of the full share. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  unfold Pipeline.arrBufs Dat.arrays
  rw [bigSep_W0, bigSep_eq_bigSepL_of_eq [main_arg0, main_arg1, main_arg2, main_arg3, main_v0] (by decide) (by decide)]
  simp only [bigSepL_cons]
  have e0 : (dats m 0 c).share 0 = fullShare := rfl
  have e1 : (dats m 0 c).share 1 = fullShare := rfl
  have e2 : (dats m 0 c).share 2 = fullShare := rfl
  have e3 : (dats m 0 c).share 3 = fullShare.left := rfl
  have e4 : (dats m 0 c).share 4 = fullShare.right := rfl
  have e5 : (dats m 0 c).share 5 = fullShare := rfl
  rw [e0, e1, e2, e3, e4, e5, (Memref.isWhole_whole main_arg0).set_eq_univ, (Memref.isWhole_whole main_arg1).set_eq_univ,
    (Memref.isWhole_whole main_arg2).set_eq_univ, (Memref.isWhole_whole main_arg3).set_eq_univ, (Memref.isWhole_whole main_v0).set_eq_univ]
  show iprop((((c : Thread nD τ).loc main_arg0) ↦{fullShare} V m c main_arg0) ∗ (((c : Thread nD τ).loc main_arg1) ↦{fullShare} V m c main_arg1)
    ∗ (((c : Thread nD τ).loc main_arg2) ↦{fullShare} V m c main_arg2) ∗ (((c : Thread nD τ).loc main_arg3) ↦{fullShare} V m c main_arg3)
    ∗ (((c : Thread nD τ).loc main_v0) ↦{fullShare} V m c main_v0) ∗ emp) ⊢ _
  iintro ⟨H0, H1, H2, H3, H5, -⟩
  have hs : ((((c : Thread nD τ).loc main_arg3) ↦{fullShare} V m c main_arg3) : sProp 𝕄)
      ⊢ iprop((((c : Thread nD τ).loc main_arg3) ↦{fullShare.left} V m c main_arg3) ∗ (((c : Thread nD τ).loc main_arg3) ↦{fullShare.right} V m c main_arg3)) :=
    (pointsTo_share (PosShare.mem_left_op_right fullShare)).1
  ihave H34 := hs $$ H3
  icases H34 with ⟨H3, H4⟩
  isplitl [H0]; · iexact H0
  isplitl [H1]; · iexact H1
  isplitl [H2]; · iexact H2
  isplitl [H3]; · iexact H3
  isplitl [H4]; · iexact H4
  iexact H5

/-- The run's post: every window's array at the proof data's account of it after the last point. -/
def RunPost (r : PUnit × MemSt nD τ sig (Elt F)) : Prop :=
  ∀ c : Dev nD, ∀ w : Fin cfg0.W, r.2.mem ((spec0 w).arr.view.loc (c.tc : Thread nD τ)) = (dats m 0 c).arrAt w cfg0.N

theorem run_main : θ_run defs (onTc (τ := τ) (main (F := F))) (s₀ m ρ) (RunPost m) :=
  Pipeline.θ_run_region_noSem_shared cfgs (dats m) () cellOf_inj 0 winFacts₀0 emb₁ defs₀ 𝒱₀ m ρ main
    (hbody := fun c => (body_obligation m c).loose) (hne := block_pos0) (harr := arr_whole0) (hstage := stage_whole0)
    (howed := fun _ _ => rfl)
    (u₀ := initOf (Pipeline.cells cfgs cellOf_inj) (Pipeline.launchToks cfgs cellOf_inj)) (hu₀ := .rfl)
    (V := V m) (hmain := Pipeline.hmain_region cfgs 0 defs₀ 𝒱₀ m main fun c => (main_chain c).trans rfl)
    (hsplit := hsplit m)
    (X := fun _ => iprop(emp)) (Y := fun _ => iprop(emp)) (Z := fun _ => iprop(emp))
    (hX := fun c => by rw [unscopedRest0_eq]; iintro -; isplitl <;> iempintro)
    (hin := fun c => by
      have e : scrPart m c 0 = iprop(∃ a, owns (c : Thread nD τ) scrM fullShare a) := by unfold scrPart; exact dif_pos rfl
      rw [scopedRest0_eq, show (dats m 0 c).Φ 0 = scrPart m c 0 from rfl, e]
      iintro ⟨-, ⟨%f, Hf⟩⟩
      iexists f; rw [owns_whole_eq]; iexists f; isplitr; (· ipureintro; rfl); iexact Hf)
    (hout := fun c => by
      rw [scopedRest0_eq, show (dats m 0 c).Φ (Fin.last cfg0.N) = scrPart m c (Fin.last cfg0.N) from rfl]
      unfold scrPart; rw [dif_neg (by have := N_0; show ¬ grid0.N = 0; omega)]
      simp only [owns_whole_eq]
      iintro ⟨%f, %hf, Hf⟩
      isplitr; · iempintro
      iexists f; iexact Hf)
    (QY := fun _ _ => True)
    (hY := fun c s' => by
      iintro ⟨-, -, HSI⟩; imodintro
      isplitr; · ipureintro; trivial
      iexact HSI)
    (hQ := fun s h c => (h c).1)

/-- info: 'Cert.Proof.KI.run_main' depends on axioms: [propext, Classical.choice, Quot.sound] -/
#guard_msgs in #print axioms run_main

variable {m ρ}

theorem final_arg0 {r : PUnit × MemSt nD τ sig (Elt F)} (h : RunPost m r) (c : Dev nD) :
    r.2.mem ((c : Thread nD τ).loc main_arg0) = m ((c : Thread nD τ).loc main_arg0) :=
  (h c 0).trans ((dats m 0 c).arrAt_in 0 rfl _)
theorem final_arg1 {r : PUnit × MemSt nD τ sig (Elt F)} (h : RunPost m r) (c : Dev nD) :
    r.2.mem ((c : Thread nD τ).loc main_arg1) = m ((c : Thread nD τ).loc main_arg1) :=
  (h c 1).trans ((dats m 0 c).arrAt_in 1 rfl _)
theorem final_arg2 {r : PUnit × MemSt nD τ sig (Elt F)} (h : RunPost m r) (c : Dev nD) :
    r.2.mem ((c : Thread nD τ).loc main_arg2) = m ((c : Thread nD τ).loc main_arg2) :=
  (h c 2).trans ((dats m 0 c).arrAt_in 2 rfl _)
theorem final_arg3 {r : PUnit × MemSt nD τ sig (Elt F)} (h : RunPost m r) (c : Dev nD) :
    r.2.mem ((c : Thread nD τ).loc main_arg3) = m ((c : Thread nD τ).loc main_arg3) :=
  (h c 3).trans ((dats m 0 c).arrAt_in 3 rfl _)
theorem final_v0 {r : PUnit × MemSt nD τ sig (Elt F)} (h : RunPost m r) (c : Dev nD) :
    r.2.mem ((c : Thread nD τ).loc main_v0) = (dats m 0 c).arrAt 5 cfg0.N :=
  h c 5

/-- The frame: the program runs to the end and leaves its four argument arrays as launched. -/
theorem frame (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨final_arg0 h c, final_arg1 h c, final_arg2 h c, final_arg3 h c⟩) (run_main m ρ)

end Cert.Proof.KI

end
-- ==== Proof.Spec.lean ====
/-
  The function both programs compute, stated once over the extended reals.

  For a batch `b`, a head `h`, a query row `r` and a key column `k` the SCORE is
      (∑ d, Q[b,h,r,d] · K[b,h,k,d]) · rsqrt(S[0,h,r,k]) · S[b,h,r,k],
  the scale of batch 0 entering through its reciprocal square root and the batch's own scale as a factor.
  A row of scores is turned into weights by the shifted softmax: subtract the row's maximum, exponentiate,
  divide by the row's sum; the result at (b,h,r,d) is ∑ k, weight[b,h,r,k] · V[b,h,k,d].
  The maximum of a row is the fold of `max` from `⊥` over its 1024 columns, the sums are finite sums.
-/
import Mathlib
import Idealize.ShloMosaic.PureOps.Ideal
import Idealize.ShloMosaic.Lib.ValueIdx

noncomputable section

open scoped BigOperators

namespace Cert.Spec

open Idealize.ShloMosaic Idealize.ShloMosaic.ValueIdx

/-- The shape of queries, keys, values and of the result. -/
abbrev SQ : Shape := ⟨4, ![8, 16, 1024, 128]⟩
/-- The shape of the scale. -/
abbrev SS : Shape := ⟨4, ![8, 16, 1024, 1024]⟩

variable (Q K Vv : SQ.Idx → EReal) (Sc : SS.Idx → EReal)

/-- The scaled score of query row `r` against key column `k`. -/
def score (b : Fin 8) (h : Fin 16) (r k : Fin 1024) : EReal :=
  (∑ d : Fin 128, Q (ix4 b h r d) * K (ix4 b h k d)) * Ideal.rsqrt (Sc (ix4 (0 : Fin 8) h r k)) * Sc (ix4 b h r k)

/-- The maximum of a row of scores: the fold of `max` from `⊥`. -/
def rowMax (b : Fin 8) (h : Fin 16) (r : Fin 1024) : EReal :=
  (Finset.univ : Finset (Fin 1024)).fold max ⊥ (fun k => score Q K Sc b h r k)

/-- The shifted exponential of a score. -/
def num (b : Fin 8) (h : Fin 16) (r k : Fin 1024) : EReal :=
  Ideal.exp (score Q K Sc b h r k - rowMax Q K Sc b h r)

/-- The row's normaliser. -/
def den (b : Fin 8) (h : Fin 16) (r : Fin 1024) : EReal :=
  ∑ k : Fin 1024, num Q K Sc b h r k

/-- The softmax weight. -/
def weight (b : Fin 8) (h : Fin 16) (r k : Fin 1024) : EReal :=
  Ideal.div (num Q K Sc b h r k) (den Q K Sc b h r)

/-- The result at explicit coordinates. -/
def outAt (b : Fin 8) (h : Fin 16) (r : Fin 1024) (d : Fin 128) : EReal :=
  ∑ k : Fin 1024, weight Q K Sc b h r k * Vv (ix4 b h k d)

/-- The result array. -/
def G : SQ.Idx → EReal := fun j => outAt Q K Vv Sc (j 0) (j 1) (j 2) (j 3)

theorem G_ix4 (b : Fin 8) (h : Fin 16) (r : Fin 1024) (d : Fin 128) :
    G Q K Vv Sc (ix4 b h r d) = outAt Q K Vv Sc b h r d := rfl

/-- For a positive real `y` the quotient by `√y` is the product with the reciprocal square root, at every
    extended real `x`. -/
theorem div_sqrt_eq_mul_rsqrt (x : EReal) {y : ℝ} (hy : 0 < y) :
    Ideal.div x (Ideal.sqrt (y : EReal)) = x * Ideal.rsqrt (y : EReal) := by
  have hs : 0 < Real.sqrt y := Real.sqrt_pos.mpr hy
  have hne : ((Real.sqrt y : ℝ) : EReal) ≠ 0 := by
    intro h; exact (ne_of_gt hs) (by exact_mod_cast h)
  simp only [Ideal.sqrt_coe, Ideal.rsqrt_coe, not_lt.mpr hy.le, if_false, ne_of_gt hy, Ideal.div, hne]
  congr 1

end Cert.Spec

end
-- ==== Proof.LibMatmulSumT.lean ====
/-
  A matrix product with the right operand transposed, read at an index, at the ideal values.

  For dimension numbers that contract the left operand's axis 1 with the right operand's axis 1, with no batch axis — an
  [M, K] by [N, K] product into [M, N], the product of the left matrix with the transpose of the right — the operand
  indices at result index `j` and contraction index `q` are (j 0, q) and (j 1, q).  So a `tpu.matmul` into a zero
  accumulator is, at every result index, the sum over `k : Fin K` of `l (j 0, k) * r (j 1, k)` on the extended reals.
-/
import Idealize.ShloMosaic.PureOps.Ideal.Laws
import Idealize.ShloMosaic.Lib.ValueIdx

noncomputable section

namespace Cert.LibMatmulSumT

open Idealize.ShloMosaic Idealize.ShloMosaic.ValueIdx

variable {M K N : Nat} (d : DotDims ⟨2, ![M, K]⟩ ⟨2, ![N, K]⟩ ⟨2, ![M, N]⟩)

/-- The one contraction axis has extent `K`. -/
theorem contr_rank (hlc : d.lhsContracting = [1]) : d.contr.rank = 1 := by
  rw [d.rank_contr, hlc]; rfl

theorem contr_size (hlc : d.lhsContracting = [1]) : d.contr.size ⟨0, by rw [contr_rank d hlc]; exact Nat.one_pos⟩ = K := by
  rw [d.size_contr 0 (by rw [hlc]; exact Nat.one_pos)]
  simp only [hlc, List.getElem_cons_zero]
  rfl

/-- Row coordinate of the left operand's index: the result's row. -/
theorem lhsIdx_row (hln : d.lhsNonContracting = [0]) (hlb : d.lhsBatch = [])
    (j : (⟨2, ![M, N]⟩ : Shape).Idx) (q : d.contr.Idx) : (d.lhsIdx j q 0).val = (j 0).val := by
  unfold DotDims.lhsIdx
  rw [dif_neg (by rw [hlb]; exact List.not_mem_nil), dif_pos (by rw [hln]; exact List.mem_singleton.mpr rfl)]
  simp only [Fin.val_cast]
  have key : ∀ (p r : Nat) (hp : p < 2) (hr : r < 2), p = r →
      (j ⟨p, hp⟩).val = (j ⟨r, hr⟩).val := fun p r hp hr h => by subst h; rfl
  exact key _ _ _ _ (by simp [hlb, hln])

/-- Row coordinate of the right operand's index: the result's column. -/
theorem rhsIdx_row (hln : d.lhsNonContracting = [0]) (hrn : d.rhsNonContracting = [0]) (hlb : d.lhsBatch = [])
    (hrb : d.rhsBatch = []) (j : (⟨2, ![M, N]⟩ : Shape).Idx) (q : d.contr.Idx) : (d.rhsIdx j q 0).val = (j 1).val := by
  unfold DotDims.rhsIdx
  rw [dif_neg (by rw [hrb]; exact List.not_mem_nil), dif_pos (by rw [hrn]; exact List.mem_singleton.mpr rfl)]
  simp only [Fin.val_cast]
  have key : ∀ (p r : Nat) (hp : p < 2) (hr : r < 2), p = r →
      (j ⟨p, hp⟩).val = (j ⟨r, hr⟩).val := fun p r hp hr h => by subst h; rfl
  exact key _ _ _ _ (by simp [hlb, hln, hrn])

/-- The contraction sum, re-indexed over `Fin K`. -/
theorem sum_contr (hlc : d.lhsContracting = [1]) (hrc : d.rhsContracting = [1]) (hln : d.lhsNonContracting = [0])
    (hrn : d.rhsNonContracting = [0]) (hlb : d.lhsBatch = []) (hrb : d.rhsBatch = [])
    (l : (⟨2, ![M, K]⟩ : Shape).Idx → EReal) (r : (⟨2, ![N, K]⟩ : Shape).Idx → EReal) (j : (⟨2, ![M, N]⟩ : Shape).Idx) :
    ∑ q : d.contr.Idx, l (d.lhsIdx j q) * r (d.rhsIdx j q) = ∑ k : Fin K, l (ix2 (j 0) k) * r (ix2 (j 1) k) := by
  rw [← Equiv.sum_comp (contrEquiv1 d K (contr_rank d hlc) (contr_size d hlc)).symm]
  refine Finset.sum_congr rfl fun k _ => ?_
  have hk := contrEquiv1_symm_val d K (contr_rank d hlc) (contr_size d hlc) k
  have el : d.lhsIdx j ((contrEquiv1 d K (contr_rank d hlc) (contr_size d hlc)).symm k) = ix2 (j 0) k :=
    funext fun a => Fin.ext (by
      match a with
      | ⟨0, _⟩ => exact lhsIdx_row d hln hlb _ _
      | ⟨1, _⟩ => exact (d.lhsIdx_val_of_single hlc _ _).trans hk)
  have er : d.rhsIdx j ((contrEquiv1 d K (contr_rank d hlc) (contr_size d hlc)).symm k) = ix2 (j 1) k :=
    funext fun a => Fin.ext (by
      match a with
      | ⟨0, _⟩ => exact rhsIdx_row d hln hrn hlb hrb _ _
      | ⟨1, _⟩ => exact (d.rhsIdx_val_of_single hrc _ _).trans hk)
  exact congrArg₂ (fun a b => l a * r b) el er

/-- A `tpu.matmul` of such a product into the zero splat, at an index: the sum of products over the shared axis. -/
theorem matmul_zero_apply {φ₁ φ₂ : FTy} (hlc : d.lhsContracting = [1]) (hrc : d.rhsContracting = [1])
    (hln : d.lhsNonContracting = [0]) (hrn : d.rhsNonContracting = [0]) (hlb : d.lhsBatch = []) (hrb : d.rhsBatch = [])
    (prec : Option ContractPrecision) (l : FVec Ideal ⟨2, ![M, K]⟩ φ₁) (r : FVec Ideal ⟨2, ![N, K]⟩ φ₂)
    (j : (⟨2, ![M, N]⟩ : Shape).Idx) :
    FloatOps.matmul d prec l r (constant ⟨2, ![M, N]⟩ .f32 0x00000000#32) j = ∑ k : Fin K, l (ix2 (j 0) k) * r (ix2 (j 1) k) :=
  (Ideal.matmul_constant_zero_apply d prec l r j).trans (sum_contr d hlc hrc hln hrn hlb hrb l r j)

end Cert.LibMatmulSumT

end
-- ==== Proof.LibMatmulSum.lean ====
/-
  A plain matrix product read at an index, at the ideal values.

  For dimension numbers that contract the left operand's axis 1 with the right operand's axis 0, with no batch axis — an
  [M, K] by [K, N] product into [M, N] — the operand indices at result index `j` and contraction index `q` are
  (j 0, q) and (q, j 1). So a `tpu.matmul` into a zero accumulator and the host's `dot_general` are, at every result
  index, the same sum over `k : Fin K` of `l (j 0, k) * r (k, j 1)` on the extended reals: no rounding, no order, and the
  change of float format on the way in is the identity.
-/
import Idealize.ShloMosaic.PureOps.Ideal.Laws
import Idealize.ShloMosaic.Lib.ValueIdx

noncomputable section

namespace Idealize.ShloMosaic.MatmulSum

open Idealize.ShloMosaic Idealize.ShloMosaic.ValueIdx

variable {M K N : Nat} (d : DotDims ⟨2, ![M, K]⟩ ⟨2, ![K, N]⟩ ⟨2, ![M, N]⟩)

/-- The one contraction axis has extent `K`. -/
theorem contr_rank (hlc : d.lhsContracting = [1]) : d.contr.rank = 1 := by
  rw [d.rank_contr, hlc]; rfl

theorem contr_size (hlc : d.lhsContracting = [1]) : d.contr.size ⟨0, by rw [contr_rank d hlc]; exact Nat.one_pos⟩ = K := by
  rw [d.size_contr 0 (by rw [hlc]; exact Nat.one_pos)]
  simp only [hlc, List.getElem_cons_zero]
  rfl

/-- Row coordinate of the left operand's index: the result's row. -/
theorem lhsIdx_row (hln : d.lhsNonContracting = [0]) (hlb : d.lhsBatch = [])
    (j : (⟨2, ![M, N]⟩ : Shape).Idx) (q : d.contr.Idx) : (d.lhsIdx j q 0).val = (j 0).val := by
  unfold DotDims.lhsIdx
  rw [dif_neg (by rw [hlb]; exact List.not_mem_nil), dif_pos (by rw [hln]; exact List.mem_singleton.mpr rfl)]
  simp only [Fin.val_cast]
  have key : ∀ (p r : Nat) (hp : p < 2) (hr : r < 2), p = r →
      (j ⟨p, hp⟩).val = (j ⟨r, hr⟩).val := fun p r hp hr h => by subst h; rfl
  exact key _ _ _ _ (by simp [hlb, hln])

/-- Column coordinate of the right operand's index: the result's column. -/
theorem rhsIdx_col (hln : d.lhsNonContracting = [0]) (hrn : d.rhsNonContracting = [1]) (hlb : d.lhsBatch = [])
    (hrb : d.rhsBatch = []) (j : (⟨2, ![M, N]⟩ : Shape).Idx) (q : d.contr.Idx) : (d.rhsIdx j q 1).val = (j 1).val := by
  unfold DotDims.rhsIdx
  rw [dif_neg (by rw [hrb]; exact List.not_mem_nil), dif_pos (by rw [hrn]; exact List.mem_singleton.mpr rfl)]
  simp only [Fin.val_cast]
  have key : ∀ (p r : Nat) (hp : p < 2) (hr : r < 2), p = r →
      (j ⟨p, hp⟩).val = (j ⟨r, hr⟩).val := fun p r hp hr h => by subst h; rfl
  exact key _ _ _ _ (by simp [hlb, hln, hrn])

/-- The contraction sum of a plain product, re-indexed over `Fin K`. -/
theorem sum_contr (hlc : d.lhsContracting = [1]) (hrc : d.rhsContracting = [0]) (hln : d.lhsNonContracting = [0])
    (hrn : d.rhsNonContracting = [1]) (hlb : d.lhsBatch = []) (hrb : d.rhsBatch = [])
    (l : (⟨2, ![M, K]⟩ : Shape).Idx → EReal) (r : (⟨2, ![K, N]⟩ : Shape).Idx → EReal) (j : (⟨2, ![M, N]⟩ : Shape).Idx) :
    ∑ q : d.contr.Idx, l (d.lhsIdx j q) * r (d.rhsIdx j q) = ∑ k : Fin K, l (ix2 (j 0) k) * r (ix2 k (j 1)) := by
  rw [← Equiv.sum_comp (contrEquiv1 d K (contr_rank d hlc) (contr_size d hlc)).symm]
  refine Finset.sum_congr rfl fun k _ => ?_
  have hk := contrEquiv1_symm_val d K (contr_rank d hlc) (contr_size d hlc) k
  have el : d.lhsIdx j ((contrEquiv1 d K (contr_rank d hlc) (contr_size d hlc)).symm k) = ix2 (j 0) k :=
    funext fun a => Fin.ext (by
      match a with
      | ⟨0, _⟩ => exact lhsIdx_row d hln hlb _ _
      | ⟨1, _⟩ => exact (d.lhsIdx_val_of_single hlc _ _).trans hk)
  have er : d.rhsIdx j ((contrEquiv1 d K (contr_rank d hlc) (contr_size d hlc)).symm k) = ix2 k (j 1) :=
    funext fun a => Fin.ext (by
      match a with
      | ⟨0, _⟩ => exact (d.rhsIdx_val_of_single hrc _ _).trans hk
      | ⟨1, _⟩ => exact rhsIdx_col d hln hrn hlb hrb _ _)
  exact congrArg₂ (fun a b => l a * r b) el er

/-- A `tpu.matmul` of a plain product into the zero splat, at an index: the sum of products over the shared axis. -/
theorem matmul_zero_apply {φ₁ φ₂ : FTy} (hlc : d.lhsContracting = [1]) (hrc : d.rhsContracting = [0])
    (hln : d.lhsNonContracting = [0]) (hrn : d.rhsNonContracting = [1]) (hlb : d.lhsBatch = []) (hrb : d.rhsBatch = [])
    (prec : Option ContractPrecision) (l : FVec Ideal ⟨2, ![M, K]⟩ φ₁) (r : FVec Ideal ⟨2, ![K, N]⟩ φ₂)
    (j : (⟨2, ![M, N]⟩ : Shape).Idx) :
    FloatOps.matmul d prec l r (constant ⟨2, ![M, N]⟩ .f32 0x00000000#32) j = ∑ k : Fin K, l (ix2 (j 0) k) * r (ix2 k (j 1)) :=
  (Ideal.matmul_constant_zero_apply d prec l r j).trans (sum_contr d hlc hrc hln hrn hlb hrb l r j)

/-- The host's `dot_general` of a plain product, at an index: the same sum. -/
theorem dotGeneral_apply {φ₁ φ₂ : FTy} (hlc : d.lhsContracting = [1]) (hrc : d.rhsContracting = [0])
    (hln : d.lhsNonContracting = [0]) (hrn : d.rhsNonContracting = [1]) (hlb : d.lhsBatch = []) (hrb : d.rhsBatch = [])
    (prec : Option ContractPrecision) (sched : HostSchedule) (l : FVec Ideal ⟨2, ![M, K]⟩ φ₁) (r : FVec Ideal ⟨2, ![K, N]⟩ φ₂)
    (j : (⟨2, ![M, N]⟩ : Shape).Idx) :
    FloatOps.dotGeneral d prec sched l r j = ∑ k : Fin K, l (ix2 (j 0) k) * r (ix2 k (j 1)) :=
  (Ideal.dotGeneral_apply d prec sched l r j).trans (sum_contr d hlc hrc hln hrn hlb hrb l r j)

end Idealize.ShloMosaic.MatmulSum

end
-- ==== Proof.LibLayout.lean ====
/- Layout operations of "keepdims" column vectors and doubly unit-led blocks, read at an index built from explicit
   coordinates. Each lemma says which element of the operand an element of the result is. -/
import Idealize.ShloMosaic.Lib.Pipeline.Value
import Idealize.ShloMosaic.Lib.ValueIdx

noncomputable section

namespace Cert.LibLayout

open Idealize.ShloMosaic Idealize.ShloMosaic.ValueIdx

variable {α : Type}

/-- A [1, 1, a, b] block viewed as [a, b]: element (p, q) is element (0, 0, p, q). -/
theorem shapeCast_11ab_ab_apply {a b : ℕ} (x : (⟨4, ![1, 1, a, b]⟩ : Shape).Idx → α)
    (h : (⟨4, ![1, 1, a, b]⟩ : Shape).ShapeCasts ⟨2, ![a, b]⟩) (p : Fin a) (q : Fin b) :
    shapeCast ⟨2, ![a, b]⟩ x h (ix2 p q) = x (ix4 (0 : Fin 1) (0 : Fin 1) p q) :=
  shapeCast_apply x h _ _ (by
    rw [Shape.rowMajor_val_four, Shape.rowMajor_val_two]
    show ((0 * 1 + 0) * a + p.val) * b + q.val = p.val * b + q.val
    simp only [Nat.zero_mul, Nat.zero_add])

/-- An [a, b] value stored as a [1, 1, a, b] block: element (0, 0, p, q) is element (p, q). -/
theorem shapeCast_ab_11ab_apply {a b : ℕ} (x : (⟨2, ![a, b]⟩ : Shape).Idx → α)
    (h : (⟨2, ![a, b]⟩ : Shape).ShapeCasts ⟨4, ![1, 1, a, b]⟩) (p : Fin a) (q : Fin b) :
    shapeCast ⟨4, ![1, 1, a, b]⟩ x h (ix4 (0 : Fin 1) (0 : Fin 1) p q) = x (ix2 p q) :=
  shapeCast_apply x h _ _ (by
    rw [Shape.rowMajor_val_four, Shape.rowMajor_val_two]
    show p.val * b + q.val = ((0 * 1 + 0) * a + p.val) * b + q.val
    simp only [Nat.zero_mul, Nat.zero_add])

/-- A vector [a] viewed as a column [a, 1]: element (p, 0) is element p. -/
theorem shapeCast_a_a1_apply {a : ℕ} (x : (⟨1, ![a]⟩ : Shape).Idx → α)
    (h : (⟨1, ![a]⟩ : Shape).ShapeCasts ⟨2, ![a, 1]⟩) (p : Fin a) :
    shapeCast ⟨2, ![a, 1]⟩ x h (ix2 p (0 : Fin 1)) = x (ix1 p) :=
  shapeCast_apply x h _ _ (by
    rw [Shape.rowMajor_val_one, Shape.rowMajor_val_two]
    show p.val = p.val * 1 + 0
    simp only [Nat.mul_one, Nat.add_zero])

/-- A column [a, 1] broadcast along its rows to [a, b]: element (p, q) is element (p, 0). -/
theorem broadcastTo_a1_ab_apply {a b : ℕ} (x : (⟨2, ![a, 1]⟩ : Shape).Idx → α)
    (h : (⟨2, ![a, 1]⟩ : Shape).Broadcasts ⟨2, ![a, b]⟩) (p : Fin a) (q : Fin b) :
    broadcastTo ⟨2, ![a, b]⟩ x h (ix2 p q) = x (ix2 p (0 : Fin 1)) :=
  broadcastTo_apply x h _ _ (fun c => by
    match c with
    | ⟨0, _⟩ =>
      show p.val = if a = 1 then 0 else p.val
      by_cases ha : a = 1
      · rw [if_pos ha]; have := p.isLt; omega
      · rw [if_neg ha]
    | ⟨1, _⟩ =>
      show 0 = if (1 : ℕ) = 1 then 0 else q.val
      rw [if_pos rfl])

end Cert.LibLayout

end
-- ==== Proof.KernelPayLemmas.lean ====
/-
  The non-pointwise steps of one attention block, read at explicit coordinates over the extended reals.

  A block of scores is a [512, 1024] array `s`.  Its row maximum is the fold of `max` from `⊥` over the 1024 columns,
  its row sum a finite sum; a row statistic [512] viewed as a column [512, 1] and broadcast to [512, 1024] reads, at
  (r, k), the statistic of row r.  So the shifted softmax of `s` at (r, k) is
      exp (s r k − max_k s r k) / ∑ k', exp (s r k' − max_k s r k),
  and its product with a [1024, 128] block `v`, accumulated into zero, is at (r, d) the sum over k of that weight times
  `v k d`.  The product of a [512, 128] block with the transpose of a [1024, 128] block, accumulated into zero, is at
  (r, k) the sum over the 128 shared coordinates of the products.
-/
import proofs.«173591_j54795192762892_2_alg».proof.Proof.Gen.KernelIdeal.Skeleton
import proofs.«173591_j54795192762892_2_alg».proof.Proof.LibMatmulSumT
import proofs.«173591_j54795192762892_2_alg».proof.Proof.LibMatmulSum
import proofs.«173591_j54795192762892_2_alg».proof.Proof.LibLayout
import Idealize.ShloMosaic.Lib.ValueIdx
import Idealize.ShloMosaic.Lib.Pipeline.Value
import Idealize.ShloMosaic.PureOps.Ideal.Laws

noncomputable section

open scoped BigOperators

namespace Cert.KernelPay

open Cert.KernelIdeal Cert.KernelIdeal.Gen Idealize.ShloMosaic Idealize.ShloMosaic.ValueIdx

/-- The word of minus infinity is the bottom element. -/
theorem ofBits_neg_inf_f32 : Ideal.ofBits .f32 0xFF800000#32 = ⊥ := by simp [Ideal.ofBits, Ideal.ieee]

/-- The index a column reduction inserts: row r of the result, column k of the source, is (r, k). -/
theorem lift_row (h : S512x1024.Reduces [1] S512) (r : Fin 512) (k : Fin 1024) :
    h.lift (ix1 r) k = ix2 r k :=
  funext fun a => Fin.ext (by
    match a with
    | ⟨0, _⟩ => rfl
    | ⟨1, _⟩ => rfl)

/-- The maximum over the columns of a [512, 1024] array, at row r: the fold of `max` from `⊥`. -/
theorem rowMax_at (s : FVec Ideal S512x1024 .f32) (h : S512x1024.Reduces [1] S512) (hφ : FKind.Formats .f32)
    (hacc : (0xFF800000#32 : BitVec 32) = FKind.maximumf.neutral .f32 hφ) (r : Fin 512) :
    multiReduction .maximumf [1] S512 s 0xFF800000#32 h hφ hacc (ix1 r)
      = (Finset.univ : Finset (Fin 1024)).fold max ⊥ (fun k => s (ix2 r k)) := by
  refine (Ideal.multiReduction_maximumf_single s _ h hφ hacc (ix1 r)).trans ?_
  show (Finset.univ : Finset (Fin 1024)).fold max (Ideal.ofBits .f32 0xFF800000#32) (fun k => s (h.lift (ix1 r) k)) = _
  rw [ofBits_neg_inf_f32]
  exact congrArg (fun f : Fin 1024 → EReal => (Finset.univ : Finset (Fin 1024)).fold max ⊥ f)
    (funext fun k => congrArg s (lift_row h r k))

/-- The sum over the columns of a [512, 1024] array, at row r. -/
theorem rowSum_at (s : FVec Ideal S512x1024 .f32) (h : S512x1024.Reduces [1] S512) (hφ : FKind.Formats .f32)
    (hacc : (0x00000000#32 : BitVec 32) = FKind.add.neutral .f32 hφ) (r : Fin 512) :
    multiReduction .add [1] S512 s 0x00000000#32 h hφ hacc (ix1 r) = ∑ k : Fin 1024, s (ix2 r k) := by
  refine (Ideal.multiReduction_add_single s _ h hφ hacc (ix1 r)).trans ?_
  show ∑ k : Fin 1024, s (h.lift (ix1 r) k) = _
  simp only [lift_row]

/-- A row statistic viewed as a column and broadcast along the row: at (r, k) it is the statistic of row r. -/
theorem colBroadcast_at (m : FVec Ideal S512 .f32) (h1 : S512.ShapeCasts S512x1) (h2 : S512x1.Broadcasts S512x1024)
    (r : Fin 512) (k : Fin 1024) :
    broadcastTo S512x1024 (shapeCast S512x1 m h1) h2 (ix2 r k) = m (ix1 r) :=
  (Cert.LibLayout.broadcastTo_a1_ab_apply (shapeCast S512x1 m h1) h2 r k).trans
    (Cert.LibLayout.shapeCast_a_a1_apply m h1 r)

/-- The exponential of a block shifted by a broadcast row statistic, at (r, k). -/
theorem expShift_at (s : FVec Ideal S512x1024 .f32) (m : FVec Ideal S512 .f32) (h1 : S512.ShapeCasts S512x1)
    (h2 : S512x1.Broadcasts S512x1024) (r : Fin 512) (k : Fin 1024) :
    exp (subf s (broadcastTo S512x1024 (shapeCast S512x1 m h1) h2)) (ix2 r k) = Ideal.exp (s (ix2 r k) - m (ix1 r)) := by
  show Ideal.exp (s (ix2 r k) - broadcastTo S512x1024 (shapeCast S512x1 m h1) h2 (ix2 r k)) = _
  rw [colBroadcast_at]

/-- The shifted softmax of a block of scores at (r, k): the exponential of the score less its row's maximum, over the
    row's sum of such exponentials. -/
theorem softmax_at (s : FVec Ideal S512x1024 .f32) (hr : S512x1024.Reduces [1] S512) (hφ : FKind.Formats .f32)
    (hmax : (0xFF800000#32 : BitVec 32) = FKind.maximumf.neutral .f32 hφ)
    (hadd : (0x00000000#32 : BitVec 32) = FKind.add.neutral .f32 hφ)
    (h1 : S512.ShapeCasts S512x1) (h2 : S512x1.Broadcasts S512x1024) (r : Fin 512) (k : Fin 1024) :
    divf (exp (subf s (broadcastTo S512x1024 (shapeCast S512x1 (multiReduction .maximumf [1] S512 s 0xFF800000#32 hr hφ hmax) h1) h2)))
      (broadcastTo S512x1024 (shapeCast S512x1
        (multiReduction .add [1] S512
          (exp (subf s (broadcastTo S512x1024 (shapeCast S512x1 (multiReduction .maximumf [1] S512 s 0xFF800000#32 hr hφ hmax) h1) h2)))
          0x00000000#32 hr hφ hadd) h1) h2) (ix2 r k)
      = Ideal.div (Ideal.exp (s (ix2 r k) - (Finset.univ : Finset (Fin 1024)).fold max ⊥ (fun k' => s (ix2 r k'))))
          (∑ k' : Fin 1024, Ideal.exp (s (ix2 r k') - (Finset.univ : Finset (Fin 1024)).fold max ⊥ (fun k'' => s (ix2 r k'')))) := by
  refine (divf_apply _ _ _).trans ?_
  refine congrArg₂ Ideal.div ?_ ?_
  · rw [expShift_at, rowMax_at]
  · rw [colBroadcast_at, rowSum_at]
    refine Finset.sum_congr rfl fun k' _ => ?_
    rw [expShift_at, rowMax_at]

/-- The product of a [512, 128] block with the transpose of a [1024, 128] block, into zero, at (r, k). -/
theorem scoreDot_at (q : FVec Ideal S512x128 .bf16) (kk : FVec Ideal S1024x128 .bf16) (r : Fin 512) (k : Fin 1024) :
    matmul dot_S512x128_S1024x128_S512x1024_1_1_0_0_n_n none q kk (constant S512x1024 .f32 0x00000000#32) (ix2 r k)
      = ∑ dd : Fin 128, q (ix2 r dd) * kk (ix2 k dd) :=
  Cert.LibMatmulSumT.matmul_zero_apply dot_S512x128_S1024x128_S512x1024_1_1_0_0_n_n rfl rfl rfl rfl rfl rfl none q kk (ix2 r k)

/-- The product of the softmax of a block of scores with a [1024, 128] block, into zero, at (r, d), when the scores
    of row r are `sc` and column d of the block is `vv`. -/
theorem tail_at (s : FVec Ideal S512x1024 .f32) (v : FVec Ideal S1024x128 .bf16) (hr : S512x1024.Reduces [1] S512)
    (hφ : FKind.Formats .f32) (hmax : (0xFF800000#32 : BitVec 32) = FKind.maximumf.neutral .f32 hφ)
    (hadd : (0x00000000#32 : BitVec 32) = FKind.add.neutral .f32 hφ)
    (h1 : S512.ShapeCasts S512x1) (h2 : S512x1.Broadcasts S512x1024) (hlt : FTy.bits .bf16 < FTy.bits .f32)
    (r : Fin 512) (d : Fin 128)
    (sc : Fin 1024 → EReal) (hs : ∀ k, s (ix2 r k) = sc k) (vv : Fin 1024 → EReal) (hv : ∀ k, v (ix2 k d) = vv k) :
    matmul dot_S512x1024_S1024x128_S512x128_1_0_0_1_n_n none
      (truncf .bf16
        (divf (exp (subf s (broadcastTo S512x1024 (shapeCast S512x1 (multiReduction .maximumf [1] S512 s 0xFF800000#32 hr hφ hmax) h1) h2)))
          (broadcastTo S512x1024 (shapeCast S512x1
            (multiReduction .add [1] S512
              (exp (subf s (broadcastTo S512x1024 (shapeCast S512x1 (multiReduction .maximumf [1] S512 s 0xFF800000#32 hr hφ hmax) h1) h2)))
              0x00000000#32 hr hφ hadd) h1) h2)) hlt)
      v (constant S512x128 .f32 0x00000000#32) (ix2 r d)
      = ∑ k : Fin 1024, Ideal.div (Ideal.exp (sc k - (Finset.univ : Finset (Fin 1024)).fold max ⊥ sc))
          (∑ k' : Fin 1024, Ideal.exp (sc k' - (Finset.univ : Finset (Fin 1024)).fold max ⊥ sc)) * vv k := by
  refine (Idealize.ShloMosaic.MatmulSum.matmul_zero_apply dot_S512x1024_S1024x128_S512x128_1_0_0_1_n_n rfl rfl rfl rfl rfl rfl none _ v
    (ix2 r d)).trans ?_
  have hfun : (fun k => s (ix2 r k)) = sc := funext hs
  refine Finset.sum_congr rfl fun k _ => ?_
  refine congrArg₂ (fun a b : EReal => a * b) ?_ (hv k)
  refine (softmax_at s hr hφ hmax hadd h1 h2 r k).trans ?_
  rw [hfun]
  simp only [hs]

end Cert.KernelPay

end
-- ==== Proof.KernelPay.lean ====
/-
  One attention block's arithmetic, read at an index over the extended reals.

  From a query block `x0` [1,1,512,128], a key block `x1` and a value block `x2` [1,1,1024,128], the scale block of
  batch 0 `x3` and the batch's own scale block `x4` [1,1,512,1024], the block computes, for a row r and a column k, the
  score
      (∑ dd, x0[r,dd] · x1[k,dd]) · rsqrt(x3[r,k]) · x4[r,k],
  then the shifted softmax of each row of scores (subtract the row's maximum, exponentiate, divide by the row's sum),
  and at (r, d) the sum over k of the weight at (r, k) times x2[k,d].  The reciprocal square root of `x3` is what the
  scratch block holds.  Format changes are the identity and both products accumulate into zero.  When the five blocks
  are the windows of the whole arrays at a grid point, the block's result is the specification's `outAt` at the
  corresponding row.
-/
import proofs.«173591_j54795192762892_2_alg».proof.Proof.Gen.KernelIdeal.Skeleton
import proofs.«173591_j54795192762892_2_alg».proof.Proof.Spec
import proofs.«173591_j54795192762892_2_alg».proof.Proof.KernelPayLemmas

noncomputable section

open scoped BigOperators

namespace Cert.KernelPay

open Cert.KernelIdeal Cert.KernelIdeal.Gen Idealize.ShloMosaic Idealize.ShloMosaic.ValueIdx

/-- The scaled score of row r against column k, from the blocks. -/
def blockScore (x0 : Vec Ideal S1x1x512x128 .f32) (x1 : Vec Ideal S1x1x1024x128 .f32) (x3 x4 : Vec Ideal S1x1x512x1024 .f32)
    (r : Fin 512) (k : Fin 1024) : EReal :=
  (∑ dd : Fin 128, (x0 (ix4 0 0 r dd) : EReal) * (x1 (ix4 0 0 k dd) : EReal)) * Ideal.rsqrt (x3 (ix4 0 0 r k)) * x4 (ix4 0 0 r k)

/-- The maximum of row r's scores: the fold of `max` from `⊥`. -/
def blockMax (x0 : Vec Ideal S1x1x512x128 .f32) (x1 : Vec Ideal S1x1x1024x128 .f32) (x3 x4 : Vec Ideal S1x1x512x1024 .f32)
    (r : Fin 512) : EReal :=
  (Finset.univ : Finset (Fin 1024)).fold max ⊥ (fun k => blockScore x0 x1 x3 x4 r k)

/-- One block's result at row r, column d, from the five input blocks. -/
def blockOut (x0 : Vec Ideal S1x1x512x128 .f32) (x1 x2 : Vec Ideal S1x1x1024x128 .f32) (x3 x4 : Vec Ideal S1x1x512x1024 .f32)
    (r : Fin 512) (d : Fin 128) : EReal :=
  ∑ k : Fin 1024,
    Ideal.div (Ideal.exp (blockScore x0 x1 x3 x4 r k - blockMax x0 x1 x3 x4 r))
      (∑ k' : Fin 1024, Ideal.exp (blockScore x0 x1 x3 x4 r k' - blockMax x0 x1 x3 x4 r)) * x2 (ix4 0 0 k d)

/-- The scratch block at (r, k): the reciprocal square root of the scale block of batch 0 there. -/
theorem scratch_at (x3 : Vec Ideal S1x1x512x1024 .f32) (r : Fin 512) (k : Fin 1024) :
    k0_pay2 (F := Ideal) x3 (ix2 r k) = Ideal.rsqrt (x3 (ix4 0 0 r k)) := by
  unfold k0_pay2
  refine (congrFun (shapeCast_self _ _) _).trans ?_
  exact congrArg Ideal.rsqrt (Cert.LibLayout.shapeCast_11ab_ab_apply x3 _ r k)

/-- The block of scores at (r, k). -/
theorem score_at (x0 : Vec Ideal S1x1x512x128 .f32) (x1 : Vec Ideal S1x1x1024x128 .f32) (x3 x4 : Vec Ideal S1x1x512x1024 .f32)
    (r : Fin 512) (k : Fin 1024) :
    mulf (mulf
        (matmul dot_S512x128_S1024x128_S512x1024_1_1_0_0_n_n none
          (truncf .bf16 (shapeCast S512x128 x0 shapeCasts_S1x1x512x128_S512x128) bitsLt_bf16_f32)
          (truncf .bf16 (shapeCast S1024x128 x1 shapeCasts_S1x1x1024x128_S1024x128) bitsLt_bf16_f32)
          (constant S512x1024 .f32 0x00000000#32))
        (k0_pay2 (F := Ideal) x3))
      (shapeCast S512x1024 x4 shapeCasts_S1x1x512x1024_S512x1024) (ix2 r k) = blockScore x0 x1 x3 x4 r k := by
  refine (mulf_apply _ _ _).trans ?_
  refine congrArg₂ (fun a b : EReal => a * b) ?_ (Cert.LibLayout.shapeCast_11ab_ab_apply x4 _ r k)
  refine (mulf_apply _ _ _).trans ?_
  refine congrArg₂ (fun a b : EReal => a * b) ?_ (scratch_at x3 r k)
  refine (scoreDot_at _ _ r k).trans ?_
  refine Finset.sum_congr rfl fun dd _ => ?_
  exact congrArg₂ (fun a b : EReal => a * b) (Cert.LibLayout.shapeCast_11ab_ab_apply x0 _ r dd)
    (Cert.LibLayout.shapeCast_11ab_ab_apply x1 _ k dd)

/-- The value block, viewed as [1024, 128], at (k, d). -/
theorem vblock_at (x2 : Vec Ideal S1x1x1024x128 .f32) (k : Fin 1024) (d : Fin 128) :
    (truncf .bf16 (shapeCast S1024x128 x2 shapeCasts_S1x1x1024x128_S1024x128) bitsLt_bf16_f32 : FVec Ideal S1024x128 .bf16) (ix2 k d)
      = x2 (ix4 0 0 k d) :=
  Cert.LibLayout.shapeCast_11ab_ab_apply x2 _ k d

/-- The block's stored result at (0, 0, r, d) is `blockOut`. -/
theorem pay_at (x0 : Vec Ideal S1x1x512x128 .f32) (x1 x2 : Vec Ideal S1x1x1024x128 .f32) (x3 x4 : Vec Ideal S1x1x512x1024 .f32)
    (r : Fin 512) (d : Fin 128) :
    k0_pay1 (F := Ideal) (k0_pay3 x0 x1 x2 x4 (k0_pay2 x3)) (ix4 (0 : Fin 1) (0 : Fin 1) r d) = blockOut x0 x1 x2 x3 x4 r d := by
  refine (Cert.LibLayout.shapeCast_ab_11ab_apply (k0_pay3 (F := Ideal) x0 x1 x2 x4 (k0_pay2 x3)) shapeCasts_S512x128_S1x1x512x128 r d).trans ?_
  exact tail_at _ _ reduces_S512x1024_S512 (.inl rfl) rfl rfl shapeCasts_S512_S512x1 broadcasts_S512x1_S512x1024 bitsLt_bf16_f32 r d
    (blockScore x0 x1 x3 x4 r) (fun k => score_at x0 x1 x3 x4 r k) (fun k => x2 (ix4 0 0 k d)) (fun k => vblock_at x2 k d)

/-- When the blocks are the windows of the whole arrays at batch b, head h and query tile qt, the block's result at
    (r, d) is the specification's result at row 512·qt + r. -/
theorem blockOut_eq_outAt (Q K Vv : Cert.Spec.SQ.Idx → EReal) (Sc : Cert.Spec.SS.Idx → EReal) (b : Fin 8) (h : Fin 16) (qt : Fin 2)
    (x0 : Vec Ideal S1x1x512x128 .f32) (x1 x2 : Vec Ideal S1x1x1024x128 .f32) (x3 x4 : Vec Ideal S1x1x512x1024 .f32)
    (h0 : ∀ (r : Fin 512) (dd : Fin 128), x0 (ix4 0 0 r dd) = Q (ix4 b h ⟨512 * qt.val + r.val, by omega⟩ dd))
    (h1 : ∀ (k : Fin 1024) (dd : Fin 128), x1 (ix4 0 0 k dd) = K (ix4 b h k dd))
    (h2 : ∀ (k : Fin 1024) (dd : Fin 128), x2 (ix4 0 0 k dd) = Vv (ix4 b h k dd))
    (h3 : ∀ (r : Fin 512) (k : Fin 1024), x3 (ix4 0 0 r k) = Sc (ix4 (0 : Fin 8) h ⟨512 * qt.val + r.val, by omega⟩ k))
    (h4 : ∀ (r : Fin 512) (k : Fin 1024), x4 (ix4 0 0 r k) = Sc (ix4 b h ⟨512 * qt.val + r.val, by omega⟩ k))
    (r : Fin 512) (d : Fin 128) :
    blockOut x0 x1 x2 x3 x4 r d = Cert.Spec.outAt Q K Vv Sc b h ⟨512 * qt.val + r.val, by omega⟩ d := by
  simp only [blockOut, blockScore, blockMax, Cert.Spec.outAt, Cert.Spec.weight, Cert.Spec.num, Cert.Spec.den, Cert.Spec.rowMax,
    Cert.Spec.score, h0, h1, h2, h3, h4]

end Cert.KernelPay

end
-- ==== Proof.KIValue.lean ====
/-
  What the result array holds after the run, at the ideal instance: the specification `Cert.Spec.G` of the four
  argument arrays. Point number t of the 256-point grid has head t / 16, query tile t / 8 % 2 and batch t % 8; its
  output block is rows 512·tile … 512·tile + 511 of (batch, head), its scratch was filled at the first point of its
  group of eight from the batch-0 scale block of the same head and tile. Each point's stored block is the block of
  `G` there (the body's arithmetic read at an index, then the blocks' places in their arrays), and the 256 blocks
  cover the result.
-/
import proofs.«173591_j54795192762892_2_alg».proof.Proof.KILaunch
import proofs.«173591_j54795192762892_2_alg».proof.Proof.KernelPay
import proofs.«173591_j54795192762892_2_alg».proof.Proof.Spec
import Idealize.ShloMosaic.Lib.Pipeline.Value
import Idealize.ShloMosaic.Lib.ValueIdx

set_option maxRecDepth 16384

noncomputable section

namespace Cert.Proof.KIValue

open Cert.KernelIdeal Cert.KernelIdeal.Gen Cert.Proof.KI
open Idealize.ShloMosaic Idealize.ShloMosaic.TcCoe Idealize.ShloMosaic.ValueIdx
open Idealize.SL.Sem
open Idealize.ShloMosaic.Pipeline (Dat)

variable (m : (ℓ : Loc nD τ sig) → Buf (Elt Ideal) ℓ) (ρ : Dev nD → PrngReg)

theorem hz4 : (![0, 0, 0, 0] : Fin 4 → Nat) = fun _ => 0 := funext fun a => by fin_cases a <;> rfl
theorem hz2 : (![0, 0] : Fin 2 → Nat) = fun _ => 0 := funext fun a => by fin_cases a <;> rfl

/-- The stored block in one form for both kinds of point: the body's arithmetic on the point's four blocks and the
    reciprocal square roots of the batch-0 scale block of the group's first point. -/
theorem outAt_eq (c : Dev nD) (t : Fin cfg0.N) :
    outAt m c t = k0_pay1 (F := Ideal) (k0_pay3 (iblk m c 0 t) (iblk m c 1 t) (iblk m c 2 t) (iblk m c 4 t) (k0_pay2 (iblk m c 3 (base t.val t.isLt)))) := by
  unfold outAt
  split
  · next h =>
    have hb : base t.val t.isLt = t := by unfold base; apply Fin.ext; show t.val - t.val % 8 = t.val; omega
    rw [hb]
    dsimp only [outv]
    rw [View.canon_unit_zero hz4, View.readCov_unit_zero _ hz2]
    simp only [View.ld_unit_zero (S := S1x1x512x128) hz4, View.ld_unit_zero (S := S1x1x1024x128) hz4, View.ld_unit_zero (S := S1x1x512x1024) hz4]
  · next h =>
    dsimp only [outv, scrOf, scrv]
    rw [View.canon_unit_zero hz4, View.canon_unit_zero hz2]
    simp only [View.ld_unit_zero (S := S1x1x512x128) hz4, View.ld_unit_zero (S := S1x1x1024x128) hz4, View.ld_unit_zero (S := S1x1x512x1024) hz4,
      View.ld_unit_zero (S := S512x1024) hz2]

/-- The printed index maps, decided over the grid. -/
theorem idx_facts : ∀ t : Fin cfg0.N,
    win0_0.index t = ![t.val % 8, t.val / 16, t.val / 8 % 2, 0]
    ∧ win0_1.index t = ![t.val % 8, t.val / 16, 0, 0]
    ∧ win0_2.index t = ![t.val % 8, t.val / 16, 0, 0]
    ∧ win0_3.index t = ![0, t.val / 16, t.val / 8 % 2, 0]
    ∧ win0_4.index t = ![t.val % 8, t.val / 16, t.val / 8 % 2, 0]
    ∧ win0_5.index t = ![t.val % 8, t.val / 16, t.val / 8 % 2, 0] :=
  (by decide +kernel : ∀ t : Fin grid0.N, _)

/-! ## The grid point's head, query tile and batch -/

theorem N_lt (t : Fin cfg0.N) : t.val < 256 := lt_of_lt_of_eq t.isLt N_0

/-- The batch of point `t`. -/
def pb (t : Fin cfg0.N) : Fin 8 := ⟨t.val % 8, Nat.mod_lt _ (by decide)⟩
/-- The head of point `t`. -/
def ph (t : Fin cfg0.N) : Fin 16 := ⟨t.val / 16, by have := N_lt t; omega⟩
/-- The query tile of point `t`. -/
def pq (t : Fin cfg0.N) : Fin 2 := ⟨t.val / 8 % 2, Nat.mod_lt _ (by decide)⟩

/-- The argument arrays as functions of their indices. -/
abbrev AQ (c : Dev nD) : Cert.Spec.SQ.Idx → EReal := V m c main_arg0
abbrev AK (c : Dev nD) : Cert.Spec.SQ.Idx → EReal := V m c main_arg1
abbrev AV (c : Dev nD) : Cert.Spec.SQ.Idx → EReal := V m c main_arg2
abbrev AS (c : Dev nD) : Cert.Spec.SS.Idx → EReal := V m c main_arg3

/-! ## The blocks read, at explicit coordinates: a block's coordinate in its array is the block index times the block's
    size plus the coordinate inside the block -/

/-- The query block of point `t`: rows 512·tile + r of (batch, head). -/
theorem iblk0_at (c : Dev nD) (t : Fin cfg0.N) (r : Fin 512) (dd : Fin 128) :
    iblk m c 0 t (ix4 (0 : Fin 1) (0 : Fin 1) r dd)
      = AQ m c (ix4 (pb t) (ph t) ⟨512 * (pq t).val + r.val, by have := (pq t).isLt; have := r.isLt; omega⟩ dd) := by
  obtain ⟨e, -, -, -, -, -⟩ := idx_facts t
  have q0 : win0_0.index t (0 : Fin 4) = t.val % 8 := congrFun e 0
  have q1 : win0_0.index t (1 : Fin 4) = t.val / 16 := congrFun e 1
  have q2 : win0_0.index t (2 : Fin 4) = t.val / 8 % 2 := congrFun e 2
  have q3 : win0_0.index t (3 : Fin 4) = 0 := congrFun e 3
  show V m c main_arg0 (((cfg0.win 0).blk t).view.emb (ix4 (0 : Fin 1) (0 : Fin 1) r dd)) = _
  refine congrArg (V m c main_arg0) (funext fun a => Fin.ext ?_)
  match a with
  | ⟨0, _⟩ => show win0_0.index t (0 : Fin 4) * 1 + 1 * 0 = t.val % 8; omega
  | ⟨1, _⟩ => show win0_0.index t (1 : Fin 4) * 1 + 1 * 0 = t.val / 16; omega
  | ⟨2, _⟩ => show win0_0.index t (2 : Fin 4) * 512 + 1 * r.val = 512 * (t.val / 8 % 2) + r.val; omega
  | ⟨3, _⟩ => show win0_0.index t (3 : Fin 4) * 128 + 1 * dd.val = dd.val; omega

/-- The key block of point `t`: all 1024 rows of (batch, head). -/
theorem iblk1_at (c : Dev nD) (t : Fin cfg0.N) (k : Fin 1024) (dd : Fin 128) :
    iblk m c 1 t (ix4 (0 : Fin 1) (0 : Fin 1) k dd) = AK m c (ix4 (pb t) (ph t) k dd) := by
  obtain ⟨-, e, -, -, -, -⟩ := idx_facts t
  have q0 : win0_1.index t (0 : Fin 4) = t.val % 8 := congrFun e 0
  have q1 : win0_1.index t (1 : Fin 4) = t.val / 16 := congrFun e 1
  have q2 : win0_1.index t (2 : Fin 4) = 0 := congrFun e 2
  have q3 : win0_1.index t (3 : Fin 4) = 0 := congrFun e 3
  show V m c main_arg1 (((cfg0.win 1).blk t).view.emb (ix4 (0 : Fin 1) (0 : Fin 1) k dd)) = _
  refine congrArg (V m c main_arg1) (funext fun a => Fin.ext ?_)
  match a with
  | ⟨0, _⟩ => show win0_1.index t (0 : Fin 4) * 1 + 1 * 0 = t.val % 8; omega
  | ⟨1, _⟩ => show win0_1.index t (1 : Fin 4) * 1 + 1 * 0 = t.val / 16; omega
  | ⟨2, _⟩ => show win0_1.index t (2 : Fin 4) * 1024 + 1 * k.val = k.val; omega
  | ⟨3, _⟩ => show win0_1.index t (3 : Fin 4) * 128 + 1 * dd.val = dd.val; omega

/-- The value block of point `t`: all 1024 rows of (batch, head). -/
theorem iblk2_at (c : Dev nD) (t : Fin cfg0.N) (k : Fin 1024) (dd : Fin 128) :
    iblk m c 2 t (ix4 (0 : Fin 1) (0 : Fin 1) k dd) = AV m c (ix4 (pb t) (ph t) k dd) := by
  obtain ⟨-, -, e, -, -, -⟩ := idx_facts t
  have q0 : win0_2.index t (0 : Fin 4) = t.val % 8 := congrFun e 0
  have q1 : win0_2.index t (1 : Fin 4) = t.val / 16 := congrFun e 1
  have q2 : win0_2.index t (2 : Fin 4) = 0 := congrFun e 2
  have q3 : win0_2.index t (3 : Fin 4) = 0 := congrFun e 3
  show V m c main_arg2 (((cfg0.win 2).blk t).view.emb (ix4 (0 : Fin 1) (0 : Fin 1) k dd)) = _
  refine congrArg (V m c main_arg2) (funext fun a => Fin.ext ?_)
  match a with
  | ⟨0, _⟩ => show win0_2.index t (0 : Fin 4) * 1 + 1 * 0 = t.val % 8; omega
  | ⟨1, _⟩ => show win0_2.index t (1 : Fin 4) * 1 + 1 * 0 = t.val / 16; omega
  | ⟨2, _⟩ => show win0_2.index t (2 : Fin 4) * 1024 + 1 * k.val = k.val; omega
  | ⟨3, _⟩ => show win0_2.index t (3 : Fin 4) * 128 + 1 * dd.val = dd.val; omega

/-- The batch-0 scale block of the first point of `t`'s group: rows 512·tile + r of (0, head), the head and tile of
    `t` itself. -/
theorem iblk3_at (c : Dev nD) (t : Fin cfg0.N) (r : Fin 512) (k : Fin 1024) :
    iblk m c 3 (base t.val t.isLt) (ix4 (0 : Fin 1) (0 : Fin 1) r k)
      = AS m c (ix4 (0 : Fin 8) (ph t) ⟨512 * (pq t).val + r.val, by have := (pq t).isLt; have := r.isLt; omega⟩ k) := by
  obtain ⟨-, -, -, e, -, -⟩ := idx_facts (base t.val t.isLt)
  have hb : (base t.val t.isLt).val = t.val - t.val % 8 := rfl
  have q0 : win0_3.index (base t.val t.isLt) (0 : Fin 4) = 0 := congrFun e 0
  have q1 : win0_3.index (base t.val t.isLt) (1 : Fin 4) = (base t.val t.isLt).val / 16 := congrFun e 1
  have q2 : win0_3.index (base t.val t.isLt) (2 : Fin 4) = (base t.val t.isLt).val / 8 % 2 := congrFun e 2
  have q3 : win0_3.index (base t.val t.isLt) (3 : Fin 4) = 0 := congrFun e 3
  show V m c main_arg3 (((cfg0.win 3).blk (base t.val t.isLt)).view.emb (ix4 (0 : Fin 1) (0 : Fin 1) r k)) = _
  refine congrArg (V m c main_arg3) (funext fun a => Fin.ext ?_)
  match a with
  | ⟨0, _⟩ => show win0_3.index (base t.val t.isLt) (0 : Fin 4) * 1 + 1 * 0 = 0; omega
  | ⟨1, _⟩ => show win0_3.index (base t.val t.isLt) (1 : Fin 4) * 1 + 1 * 0 = t.val / 16; omega
  | ⟨2, _⟩ => show win0_3.index (base t.val t.isLt) (2 : Fin 4) * 512 + 1 * r.val = 512 * (t.val / 8 % 2) + r.val; omega
  | ⟨3, _⟩ => show win0_3.index (base t.val t.isLt) (3 : Fin 4) * 1024 + 1 * k.val = k.val; omega

/-- The batch's own scale block of point `t`: rows 512·tile + r of (batch, head). -/
theorem iblk4_at (c : Dev nD) (t : Fin cfg0.N) (r : Fin 512) (k : Fin 1024) :
    iblk m c 4 t (ix4 (0 : Fin 1) (0 : Fin 1) r k)
      = AS m c (ix4 (pb t) (ph t) ⟨512 * (pq t).val + r.val, by have := (pq t).isLt; have := r.isLt; omega⟩ k) := by
  obtain ⟨-, -, -, -, e, -⟩ := idx_facts t
  have q0 : win0_4.index t (0 : Fin 4) = t.val % 8 := congrFun e 0
  have q1 : win0_4.index t (1 : Fin 4) = t.val / 16 := congrFun e 1
  have q2 : win0_4.index t (2 : Fin 4) = t.val / 8 % 2 := congrFun e 2
  have q3 : win0_4.index t (3 : Fin 4) = 0 := congrFun e 3
  show V m c main_arg3 (((cfg0.win 4).blk t).view.emb (ix4 (0 : Fin 1) (0 : Fin 1) r k)) = _
  refine congrArg (V m c main_arg3) (funext fun a => Fin.ext ?_)
  match a with
  | ⟨0, _⟩ => show win0_4.index t (0 : Fin 4) * 1 + 1 * 0 = t.val % 8; omega
  | ⟨1, _⟩ => show win0_4.index t (1 : Fin 4) * 1 + 1 * 0 = t.val / 16; omega
  | ⟨2, _⟩ => show win0_4.index t (2 : Fin 4) * 512 + 1 * r.val = 512 * (t.val / 8 % 2) + r.val; omega
  | ⟨3, _⟩ => show win0_4.index t (3 : Fin 4) * 1024 + 1 * k.val = k.val; omega

/-- The place in the result array of element (0, 0, r, d) of point `t`'s output block. -/
theorem emb5_at (t : Fin cfg0.N) (r : Fin 512) (d : Fin 128) :
    ((cfg0.win 5).blk t).view.emb (ix4 (0 : Fin 1) (0 : Fin 1) r d)
      = (ix4 (pb t) (ph t) ⟨512 * (pq t).val + r.val, by have := (pq t).isLt; have := r.isLt; omega⟩ d : Cert.Spec.SQ.Idx) := by
  obtain ⟨-, -, -, -, -, e⟩ := idx_facts t
  have q0 : win0_5.index t (0 : Fin 4) = t.val % 8 := congrFun e 0
  have q1 : win0_5.index t (1 : Fin 4) = t.val / 16 := congrFun e 1
  have q2 : win0_5.index t (2 : Fin 4) = t.val / 8 % 2 := congrFun e 2
  have q3 : win0_5.index t (3 : Fin 4) = 0 := congrFun e 3
  refine funext fun a => Fin.ext ?_
  match a with
  | ⟨0, _⟩ => show win0_5.index t (0 : Fin 4) * 1 + 1 * 0 = t.val % 8; omega
  | ⟨1, _⟩ => show win0_5.index t (1 : Fin 4) * 1 + 1 * 0 = t.val / 16; omega
  | ⟨2, _⟩ => show win0_5.index t (2 : Fin 4) * 512 + 1 * r.val = 512 * (t.val / 8 % 2) + r.val; omega
  | ⟨3, _⟩ => show win0_5.index t (3 : Fin 4) * 128 + 1 * d.val = d.val; omega

/-! ## What a point writes back, the cover, and the array after the run -/

/-- WHAT POINT `t` WRITES BACK is block `t` of the specification of the argument arrays. -/
theorem flushed5_eq (c : Dev nD) (t : Fin cfg0.N) :
    (dats m 0 c).flushed 5 t
      = ((cfg0.win 5).blk t).view.read (Elt Ideal) (Cert.Spec.G (AQ m c) (AK m c) (AV m c) (AS m c)) := by
  show (cfg0.win 5).cut (grid0.coords t) ((dats m 0 c).after 5 t) = _
  rw [after_5, outAt_eq]
  funext j
  have hj : j = ix4 (0 : Fin 1) (0 : Fin 1) (j 2) (j 3) :=
    (eq_ix4 (n0 := 1) (n1 := 1) (n2 := 512) (n3 := 128) j).trans
      (congrArg₂ (fun (a b : Fin 1) => ix4 a b (j 2) (j 3)) (Subsingleton.elim _ _) (Subsingleton.elim _ _))
  obtain ⟨r, d, rfl⟩ : ∃ (r : Fin 512) (d : Fin 128), j = ix4 (0 : Fin 1) (0 : Fin 1) r d := ⟨j 2, j 3, hj⟩
  show k0_pay1 (F := Ideal) (k0_pay3 (iblk m c 0 t) (iblk m c 1 t) (iblk m c 2 t) (iblk m c 4 t) (k0_pay2 (iblk m c 3 (base t.val t.isLt))))
      (ix4 (0 : Fin 1) (0 : Fin 1) r d)
    = Cert.Spec.G (AQ m c) (AK m c) (AV m c) (AS m c) (((cfg0.win 5).blk t).view.emb (ix4 (0 : Fin 1) (0 : Fin 1) r d))
  rw [emb5_at, Cert.Spec.G_ix4]
  refine (Cert.KernelPay.pay_at _ _ _ _ _ r d).trans ?_
  exact Cert.KernelPay.blockOut_eq_outAt (AQ m c) (AK m c) (AV m c) (AS m c) (pb t) (ph t) (pq t) _ _ _ _ _
    (fun r dd => iblk0_at m c t r dd) (fun k dd => iblk1_at m c t k dd) (fun k dd => iblk2_at m c t k dd)
    (fun r k => iblk3_at m c t r k) (fun r k => iblk4_at m c t r k) r d

/-- An index of the result is in point `t`'s block iff each coordinate is in the block's range on its axis. -/
theorem mem_blk5 (t : Fin cfg0.N) (i : S8x16x1024x128.Idx) :
    i ∈ ((cfg0.win 5).blk t).view.set ↔ ∀ a : Fin 4, win0_5.index t a * S1x1x512x128.size a ≤ (i a).val
      ∧ (i a).val < win0_5.index t a * S1x1x512x128.size a + S1x1x512x128.size a := by
  show i ∈ ((View.whole main_v0).slice (win0_5.rect t)).set ↔ _
  rw [View.set_slice_whole, Rect.mem_set_unit]
  exact Iff.rfl

/-- THE COVER: the index (b, h, R, d) lies in the block of the point of head h, tile R / 512 and batch b. -/
theorem cover5 (i : S8x16x1024x128.Idx) :
    ∃ t : Fin cfg0.N, (cfg0.win 5).flush t = true ∧ i ∈ ((cfg0.win 5).blk t).view.set := by
  have h0 : (i 0).val < 8 := (i 0).isLt
  have h1 : (i 1).val < 16 := (i 1).isLt
  have h2 : (i 2).val < 1024 := (i 2).isLt
  have h3 : (i 3).val < 128 := (i 3).isLt
  have hN : (i 1).val * 16 + (i 2).val / 512 * 8 + (i 0).val < cfg0.N := lt_of_lt_of_eq (by omega) N_0.symm
  obtain ⟨-, -, -, -, -, e⟩ := idx_facts ⟨(i 1).val * 16 + (i 2).val / 512 * 8 + (i 0).val, hN⟩
  refine ⟨⟨(i 1).val * 16 + (i 2).val / 512 * 8 + (i 0).val, hN⟩, flush0_5 _, ?_⟩
  have q0 : win0_5.index ⟨(i 1).val * 16 + (i 2).val / 512 * 8 + (i 0).val, hN⟩ (0 : Fin 4)
      = ((i 1).val * 16 + (i 2).val / 512 * 8 + (i 0).val) % 8 := congrFun e 0
  have q1 : win0_5.index ⟨(i 1).val * 16 + (i 2).val / 512 * 8 + (i 0).val, hN⟩ (1 : Fin 4)
      = ((i 1).val * 16 + (i 2).val / 512 * 8 + (i 0).val) / 16 := congrFun e 1
  have q2 : win0_5.index ⟨(i 1).val * 16 + (i 2).val / 512 * 8 + (i 0).val, hN⟩ (2 : Fin 4)
      = ((i 1).val * 16 + (i 2).val / 512 * 8 + (i 0).val) / 8 % 2 := congrFun e 2
  have q3 : win0_5.index ⟨(i 1).val * 16 + (i 2).val / 512 * 8 + (i 0).val, hN⟩ (3 : Fin 4) = 0 := congrFun e 3
  rw [mem_blk5]
  intro a
  match a with
  | ⟨0, _⟩ =>
    show win0_5.index ⟨(i 1).val * 16 + (i 2).val / 512 * 8 + (i 0).val, hN⟩ (0 : Fin 4) * 1 ≤ (i 0).val
      ∧ (i 0).val < win0_5.index ⟨(i 1).val * 16 + (i 2).val / 512 * 8 + (i 0).val, hN⟩ (0 : Fin 4) * 1 + 1
    omega
  | ⟨1, _⟩ =>
    show win0_5.index ⟨(i 1).val * 16 + (i 2).val / 512 * 8 + (i 0).val, hN⟩ (1 : Fin 4) * 1 ≤ (i 1).val
      ∧ (i 1).val < win0_5.index ⟨(i 1).val * 16 + (i 2).val / 512 * 8 + (i 0).val, hN⟩ (1 : Fin 4) * 1 + 1
    omega
  | ⟨2, _⟩ =>
    show win0_5.index ⟨(i 1).val * 16 + (i 2).val / 512 * 8 + (i 0).val, hN⟩ (2 : Fin 4) * 512 ≤ (i 2).val
      ∧ (i 2).val < win0_5.index ⟨(i 1).val * 16 + (i 2).val / 512 * 8 + (i 0).val, hN⟩ (2 : Fin 4) * 512 + 512
    omega
  | ⟨3, _⟩ =>
    show win0_5.index ⟨(i 1).val * 16 + (i 2).val / 512 * 8 + (i 0).val, hN⟩ (3 : Fin 4) * 128 ≤ (i 3).val
      ∧ (i 3).val < win0_5.index ⟨(i 1).val * 16 + (i 2).val / 512 * 8 + (i 0).val, hN⟩ (3 : Fin 4) * 128 + 128
    omega

/-- THE RESULT ARRAY after the run: the specification of the argument arrays. -/
theorem final (c : Dev nD) :
    (dats m 0 c).arrAt 5 cfg0.N = Cert.Spec.G (AQ m c) (AK m c) (AV m c) (AS m c) :=
  (dats m 0 c).arrAt_eq_of_cover 5 _ (fun t _ => flushed5_eq m c t) cover5

/-! ## The run, read -/

/-- The run re-posted: the result array holds the specification of the argument arrays, which are unchanged. -/
theorem run : θ_run (Cert.KernelIdeal.defs (F := Ideal)) (onTc (τ := τ) (main (F := Ideal))) ⟨m, fun _ => 0, ρ⟩ (fun r => ∀ c : Dev nD,
      r.2.mem ((c.tc : Thread nD τ).loc main_v0)
        = Cert.Spec.G (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨(final_v0 h c).trans (final m c), final_arg0 h c, final_arg1 h c, final_arg2 h c, final_arg3 h c⟩)
    (run_main m ρ)

end Cert.Proof.KIValue

end
-- ==== Proof.RefTerm.lean ====
/-
  The reference's composed term is the specification's function.

  The reference computes, stage by stage: the products' sums over the feature axis; the square root of the
  scale's batch-0 slab, broadcast back over the batches; the quotient by it and the product with the scale
  (the score); each row's maximum, folded from -∞ and then joined with -∞ once more; the exponential of the
  score less that maximum; each row's sum from 0; the quotient (the weight); and the weights' products with the
  values summed over the key axis.  Read at explicit coordinates, each stage is the specification's definition
  of the same name, PROVIDED every element of the scale's batch-0 slab is a positive real: there the quotient by
  the square root is the product with the reciprocal square root.
-/
import proofs.«173591_j54795192762892_2_alg».proof.Proof.Gen.ReferenceIdeal.Read
import proofs.«173591_j54795192762892_2_alg».proof.Proof.Spec
import Idealize.ShloMosaic.Lib.ValueLayout

noncomputable section

open scoped BigOperators

namespace Cert.RefTerm

open Cert.ReferenceIdeal Cert.ReferenceIdeal.Gen Cert.ReferenceIdeal.Read Idealize.ShloMosaic Idealize.ShloMosaic.ValueIdx

variable (Q K Vv : Cert.Spec.SQ.Idx → EReal) (Sc : Cert.Spec.SS.Idx → EReal)

/-- The word of -∞ denotes `⊥`. -/
theorem ofBits_neg_inf : Ideal.ofBits .f32 0xFF800000#32 = (⊥ : EReal) := by simp [Ideal.ofBits, Ideal.ieee]

/-- The products' sums: at `(b, h, r, k)` the sum over the feature axis of query row `r` times key row `k`. -/
theorem dot0_apply (b : Fin 8) (h : Fin 16) (r k : Fin 1024) :
    val_main_v0 (F := Ideal) Q K (ix4 b h r k) = ∑ d : Fin 128, Q (ix4 b h r d) * K (ix4 b h k d) := by
  rw [val_main_v0_apply]
  refine Finset.sum_congr rfl fun d _ => ?_
  have e1 : lidx_main_v0 (ix4 b h r k) d = ix4 b h r d :=
    funext fun a => by match a with | ⟨0, _⟩ => rfl | ⟨1, _⟩ => rfl | ⟨2, _⟩ => rfl | ⟨3, _⟩ => rfl
  have e2 : ridx_main_v0 (ix4 b h r k) d = ix4 b h k d :=
    funext fun a => by match a with | ⟨0, _⟩ => rfl | ⟨1, _⟩ => rfl | ⟨2, _⟩ => rfl | ⟨3, _⟩ => rfl
  rw [e1, e2]

/-- The batch-0 slab of the scale at `(h, r, k)` is the scale at `(0, h, r, k)`. -/
theorem slab_apply (h : Fin 16) (r k : Fin 1024) :
    val_main_v2 (F := Ideal) Sc (ix3 h r k) = Sc (ix4 (0 : Fin 8) h r k) := by
  unfold val_main_v2 val_main_v1
  refine (shapeCast_1abc_abc_apply _ _ h r k).trans ?_
  refine extractStridedSlice_apply _ Sc _ _ _ fun a => ?_
  match a with
  | ⟨0, _⟩ => rfl
  | ⟨1, _⟩ => show h.val = 0 + h.val; omega
  | ⟨2, _⟩ => show r.val = 0 + r.val; omega
  | ⟨3, _⟩ => show k.val = 0 + k.val; omega

/-- The divisor at `(b, h, r, k)`: the square root of the scale at `(0, h, r, k)`, whatever `b`. -/
theorem root_apply (b : Fin 8) (h : Fin 16) (r k : Fin 1024) :
    val_main_v5 (F := Ideal) Sc (ix4 b h r k) = Ideal.sqrt (Sc (ix4 (0 : Fin 8) h r k)) := by
  rw [val_main_v5_apply, val_main_v4_apply, val_main_v3_apply]
  have e : idx_main_v4 (idx_main_v5 (ix4 b h r k)) = ix3 h r k :=
    funext fun a => by match a with | ⟨0, _⟩ => rfl | ⟨1, _⟩ => rfl | ⟨2, _⟩ => rfl
  rw [e, slab_apply]
  rfl

/-- The score, where the scale's batch-0 element is a positive real. -/
theorem score_apply (b : Fin 8) (h : Fin 16) (r k : Fin 1024) {y : ℝ} (hy : 0 < y)
    (hS : Sc (ix4 (0 : Fin 8) h r k) = (y : EReal)) :
    val_main_v7 (F := Ideal) Q K Sc (ix4 b h r k) = Cert.Spec.score Q K Sc b h r k := by
  rw [val_main_v7_apply, val_main_v6_apply, dot0_apply, root_apply]
  unfold Cert.Spec.score
  rw [hS]
  show Ideal.div _ (Ideal.sqrt (y : EReal)) * _ = _
  rw [Cert.Spec.div_sqrt_eq_mul_rsqrt _ hy]

variable (hpos : ∀ (h : Fin 16) (r k : Fin 1024), ∃ y : ℝ, 0 < y ∧ Sc (ix4 (0 : Fin 8) h r k) = (y : EReal))

include hpos

/-- The score at every index, under the positivity of the scale's batch-0 slab. -/
theorem score_eq (b : Fin 8) (h : Fin 16) (r k : Fin 1024) :
    val_main_v7 (F := Ideal) Q K Sc (ix4 b h r k) = Cert.Spec.score Q K Sc b h r k := by
  obtain ⟨y, hy, hS⟩ := hpos h r k
  exact score_apply Q K Sc b h r k hy hS

/-- The row's maximum: the fold from -∞ over the key axis, joined with -∞. -/
theorem rowMax_eq (b : Fin 8) (h : Fin 16) (r : Fin 1024) :
    val_main_v10 (F := Ideal) Q K Sc (ix3 b h r) = Cert.Spec.rowMax Q K Sc b h r := by
  rw [val_main_v10_apply, val_main_v9_apply, val_main_cst_0_apply]
  unfold val_main_v8
  have hred : S8x16x1024x1024.Reduces [3] S8x16x1024 := by decide
  rw [Host.reduce_eq_fold_single _ _ _ reducesTo_S8x16x1024x1024_S8x16x1024_d3 hred h_S_ (ix3 b h r)]
  have hl : ∀ k : Fin 1024, hred.lift (ix3 b h r) k = ix4 b h r k := fun k =>
    funext fun c => Fin.ext (by match c with | ⟨0, _⟩ => rfl | ⟨1, _⟩ => rfl | ⟨2, _⟩ => rfl | ⟨3, _⟩ => rfl)
  show max (Ideal.ofBits .f32 0xFF800000#32)
      ((Finset.univ : Finset (Fin 1024)).fold max (Ideal.ofBits .f32 0xFF800000#32)
        (fun k => val_main_v7 (F := Ideal) Q K Sc (hred.lift (ix3 b h r) k))) = _
  rw [ofBits_neg_inf, max_eq_right bot_le]
  unfold Cert.Spec.rowMax
  refine Finset.fold_congr fun (k : Fin 1024) _ => ?_
  rw [hl k]
  exact score_eq Q K Sc hpos b h r k

/-- The shifted exponential. -/
theorem num_eq (b : Fin 8) (h : Fin 16) (r k : Fin 1024) :
    val_main_v14 (F := Ideal) Q K Sc (ix4 b h r k) = Cert.Spec.num Q K Sc b h r k := by
  rw [val_main_v14_apply, val_main_v13_apply, val_main_v12_apply, val_main_v11_apply]
  have e : idx_main_v11 (idx_main_v12 (ix4 b h r k)) = ix3 b h r :=
    funext fun a => by match a with | ⟨0, _⟩ => rfl | ⟨1, _⟩ => rfl | ⟨2, _⟩ => rfl
  rw [e, score_eq Q K Sc hpos, rowMax_eq Q K Sc hpos]
  rfl

/-- The row's sum, from 0. -/
theorem den_eq (b : Fin 8) (h : Fin 16) (r : Fin 1024) :
    val_main_v15 (F := Ideal) Q K Sc (ix3 b h r) = Cert.Spec.den Q K Sc b h r := by
  rw [val_main_v15_apply, val_main_cst_1_apply]
  show Ideal.ofBits .f32 0x00000000#32 + _ = _
  rw [Ideal.ofBits_zero_f32, zero_add]
  unfold Cert.Spec.den
  refine Finset.sum_congr rfl fun k _ => ?_
  have e : idx_main_v15 (ix3 b h r) k = ix4 b h r k :=
    funext fun a => by match a with | ⟨0, _⟩ => rfl | ⟨1, _⟩ => rfl | ⟨2, _⟩ => rfl | ⟨3, _⟩ => rfl
  rw [e, num_eq Q K Sc hpos]

/-- The weight. -/
theorem weight_eq (b : Fin 8) (h : Fin 16) (r k : Fin 1024) :
    val_main_v18 (F := Ideal) Q K Sc (ix4 b h r k) = Cert.Spec.weight Q K Sc b h r k := by
  rw [val_main_v18_apply, val_main_v17_apply, val_main_v16_apply]
  have e : idx_main_v16 (idx_main_v17 (ix4 b h r k)) = ix3 b h r :=
    funext fun a => by match a with | ⟨0, _⟩ => rfl | ⟨1, _⟩ => rfl | ⟨2, _⟩ => rfl
  rw [e, num_eq Q K Sc hpos, den_eq Q K Sc hpos]
  rfl

/-- The reference's last stage is the specification's function. -/
theorem ref_eq_G : val_main_v19 (F := Ideal) Q K Vv Sc = Cert.Spec.G Q K Vv Sc := by
  funext j
  obtain ⟨b, h, r, d, rfl⟩ : ∃ (b : Fin 8) (h : Fin 16) (r : Fin 1024) (d : Fin 128), j = ix4 b h r d :=
    ⟨j 0, j 1, j 2, j 3, eq_ix4 j⟩
  rw [val_main_v19_apply, Cert.Spec.G_ix4]
  unfold Cert.Spec.outAt
  refine Finset.sum_congr rfl fun k _ => ?_
  have e1 : lidx_main_v19 (ix4 b h r d) k = ix4 b h r k :=
    funext fun a => by match a with | ⟨0, _⟩ => rfl | ⟨1, _⟩ => rfl | ⟨2, _⟩ => rfl | ⟨3, _⟩ => rfl
  have e2 : ridx_main_v19 (ix4 b h r d) k = ix4 b h k d :=
    funext fun a => by match a with | ⟨0, _⟩ => rfl | ⟨1, _⟩ => rfl | ⟨2, _⟩ => rfl | ⟨3, _⟩ => rfl
  rw [e1, e2, weight_eq Q K Sc hpos]

end Cert.RefTerm

end
-- ==== Proof.RefValue.lean ====
import proofs.«173591_j54795192762892_2_alg».proof.Proof.Gen.ReferenceIdeal.Read
import proofs.«173591_j54795192762892_2_alg».proof.Proof.Spec
import proofs.«173591_j54795192762892_2_alg».proof.Proof.RefTerm
/-
  The reference's run ends with the specification's function of its arguments.

  Every weakly fair execution of the reference terminates with its result at the composed term of its
  arguments' launch contents, and the arguments unchanged.  Where every element of the scale's batch-0 slab is a
  positive real, that composed term is the specification's function of the four arguments.
-/

noncomputable section

namespace Cert.RefValue

open Cert.ReferenceIdeal Cert.ReferenceIdeal.Gen Idealize.ShloMosaic Idealize.ShloMosaic.TcCoe Idealize.SL.Sem
open Idealize.ShloMosaic.StableHlo Idealize.ShloMosaic.ValueIdx

/-- The reference's run, its result stated as the specification's function. -/
theorem run_G (m' : (ℓ : Loc Cert.ReferenceIdeal.nD Cert.ReferenceIdeal.τ Cert.ReferenceIdeal.sig) → Buf (Elt Ideal) ℓ)
    (ρ' : Dev Cert.ReferenceIdeal.nD → PrngReg)
    (hpos : ∀ (c : Dev Cert.ReferenceIdeal.nD) (h : Fin 16) (r k : Fin 1024), ∃ y : ℝ, 0 < y ∧
      (m' ((c.tc : Thread Cert.ReferenceIdeal.nD Cert.ReferenceIdeal.τ).loc Cert.ReferenceIdeal.main_arg3) : Cert.Spec.SS.Idx → EReal)
        (ix4 (0 : Fin 8) h r k) = (y : EReal)) :
    θ_run (Cert.ReferenceIdeal.defs (F := Ideal)) (onTc (τ := Cert.ReferenceIdeal.τ) (Cert.ReferenceIdeal.main (F := Ideal)))
      ⟨m', fun _ => 0, ρ'⟩ (fun r => ∀ c : Dev Cert.ReferenceIdeal.nD,
        r.2.mem ((c.tc : Thread Cert.ReferenceIdeal.nD Cert.ReferenceIdeal.τ).loc Cert.ReferenceIdeal.main_v19)
            = Cert.Spec.G (m' ((c.tc : Thread Cert.ReferenceIdeal.nD Cert.ReferenceIdeal.τ).loc Cert.ReferenceIdeal.main_arg0))
                (m' ((c.tc : Thread Cert.ReferenceIdeal.nD Cert.ReferenceIdeal.τ).loc Cert.ReferenceIdeal.main_arg1))
                (m' ((c.tc : Thread Cert.ReferenceIdeal.nD Cert.ReferenceIdeal.τ).loc Cert.ReferenceIdeal.main_arg2))
                (m' ((c.tc : Thread Cert.ReferenceIdeal.nD Cert.ReferenceIdeal.τ).loc Cert.ReferenceIdeal.main_arg3))
        ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)) :=
  (θ_run (Cert.ReferenceIdeal.defs (F := Ideal)) _ _).mono
    (fun _ h c => ⟨(h c).1.trans ((Cert.ReferenceIdeal.Read.val_main_v19_eq (F := Ideal) _ _ _ _).trans
        (Cert.RefTerm.ref_eq_G _ _ _ _ (hpos c))), (h c).2⟩)
    (Cert.ReferenceIdeal.Value.run (F := Ideal) m' ρ')

end Cert.RefValue

end
-- ==== Proof.PreDecode.lean ====
/-
  What the precondition says of the scale of batch 0.

  The precondition is a conjunction of five tests, each an "all elements" reduction by `and` from the bit 1:
  the absolute value of every element of the three inputs and of the scale is below +∞ (four tests), and every
  element of the scale's batch-0 slab is above 0.  Read at one index of that slab, the fourth test says the
  element is neither infinity and the fifth that it is above 0: it is a positive real.
-/
import proofs.«173591_j54795192762892_2_alg».proof.Pre_finite_inputs
import proofs.«173591_j54795192762892_2_alg».proof.Proof.Gen.Pre_finite_inputs
import proofs.«173591_j54795192762892_2_alg».proof.Proof.Spec
import Idealize.ShloMosaic.Lib.ReduceAll
import Idealize.ShloMosaic.Lib.ValueLayout

noncomputable section

namespace Cert.PreDecode

open Idealize.ShloMosaic Idealize.ShloMosaic.ValueIdx
open Cert.Pre_finite_inputs

/-- The scalar shape has one index. -/
instance : Subsingleton S_.Idx := ⟨fun a b => funext fun d => d.elim0⟩

/-- The word of +∞ denotes `⊤`. -/
theorem ofBits_inf : Ideal.ofBits .f32 0x7F800000#32 = (⊤ : EReal) := by simp [Ideal.ofBits, Ideal.ieee]

/-- The zero word denotes `0`. -/
theorem ofBits_zero : Ideal.ofBits .f32 0x00000000#32 = (0 : EReal) := by simp [Ideal.ofBits, Ideal.ieee]

/-- A one-bit word built from a decision is 1 exactly when the decision holds. -/
theorem ofBool_eq_one (b : Bool) : BitVec.ofBool b = 1#1 ↔ b = true := by cases b <;> decide

/-- An extended real whose absolute value is below +∞ is neither infinity. -/
theorem finite_of_abs_lt (x : EReal)
    (h : Ideal.cmp .olt (max x (-x)) (Ideal.ofBits .f32 0x7F800000#32) = 1#1) : x ≠ ⊤ ∧ x ≠ ⊥ := by
  rw [ofBits_inf] at h
  simp only [Ideal.cmp, ofBool_eq_one, decide_eq_true_eq] at h
  refine ⟨?_, ?_⟩
  · rintro rfl; simp at h
  · rintro rfl; simp at h

/-- An extended real above the zero word's value is above 0. -/
theorem pos_of_gt (x : EReal) (h : Ideal.cmp .ogt x (Ideal.ofBits .f32 0x00000000#32) = 1#1) : 0 < x := by
  rw [ofBits_zero] at h
  simpa only [Ideal.cmp, ofBool_eq_one, decide_eq_true_eq] using h

/-- The batch-0 slab — the slice `[0:1]` with its unit axis dropped — reads, at `(h, r, k)`, the scale at
    `(0, h, r, k)`. -/
theorem slab_apply [Facts] (a3 : FVec Ideal S8x16x1024x1024 .f32) (h : Fin 16) (r k : Fin 1024) :
    shapeCast S16x1024x1024
        (extractStridedSlice S1x16x1024x1024 ![0, 0, 0, 0] a3 Facts.slices_S8x16x1024x1024_S1x16x1024x1024_0_0_0_0)
        Facts.shapeCasts_S1x16x1024x1024_S16x1024x1024 (ix3 h r k)
      = a3 (ix4 (0 : Fin 8) h r k) := by
  refine (shapeCast_1abc_abc_apply _ _ h r k).trans ?_
  refine extractStridedSlice_apply _ a3 _ _ _ fun a => ?_
  match a with
  | ⟨0, _⟩ => rfl
  | ⟨1, _⟩ => show h.val = 0 + h.val; omega
  | ⟨2, _⟩ => show r.val = 0 + r.val; omega
  | ⟨3, _⟩ => show k.val = 0 + k.val; omega

/-- Under the precondition every element of the scale's batch-0 slab is a positive real. -/
theorem pos_of_pre_vec [Facts] (a0 a1 a2 : FVec Ideal S8x16x1024x128 .f32) (a3 : FVec Ideal S8x16x1024x1024 .f32)
    (hpre : fn (F := Ideal) a0 a1 a2 a3 = (fun _ => 1#1)) (h : Fin 16) (r k : Fin 1024) :
    ∃ y : ℝ, 0 < y ∧ a3 (ix4 (0 : Fin 8) h r k) = (y : EReal) := by
  have e := congrFun hpre ix0
  dsimp only [fn, fn_part1] at e
  simp only [andi, IntOp.andi_eq_one] at e
  obtain ⟨⟨_, e4⟩, e5⟩ := e
  have f4 := Host.reduce_andi_all _ _ _ _ ix0 e4 (ix4 (0 : Fin 8) h r k)
  have f5 := Host.reduce_andi_all _ _ _ _ ix0 e5 (ix3 h r k)
  rw [cmpf_apply, slab_apply] at f5
  obtain ⟨hT, hB⟩ := finite_of_abs_lt (a3 (ix4 (0 : Fin 8) h r k)) f4
  have hp : 0 < a3 (ix4 (0 : Fin 8) h r k) := pos_of_gt _ f5
  revert hT hB hp
  generalize a3 (ix4 (0 : Fin 8) h r k) = x
  intro hT hB hp
  induction x using EReal.rec with
  | bot => exact absurd rfl hB
  | top => exact absurd rfl hT
  | coe y => exact ⟨y, by exact_mod_cast hp, rfl⟩

/-- The same, with the arrays typed as the specification types them. -/
theorem pos_of_pre [Facts] (a0 a1 a2 : Cert.Spec.SQ.Idx → EReal) (a3 : Cert.Spec.SS.Idx → EReal)
    (hpre : fn (F := Ideal) a0 a1 a2 a3 = (fun _ => 1#1)) (h : Fin 16) (r k : Fin 1024) :
    ∃ y : ℝ, 0 < y ∧ a3 (ix4 (0 : Fin 8) h r k) = (y : EReal) :=
  pos_of_pre_vec a0 a1 a2 a3 hpre h r k

end Cert.PreDecode

end
-- ==== Proof.lean ====
/-
  The certificate: a tiled attention kernel with a learnable scale against its plain reference.

  Both programs compute, for batch b, head h, query row r and feature d,
      ∑ k, softmax_k( (∑ e, Q[b,h,r,e]·K[b,h,k,e]) · S[b,h,r,k] / √S[0,h,r,k] ) · V[b,h,k,d] :
  the kernel multiplies by the reciprocal square root of the batch-0 scale (kept in a scratch buffer across the eight
  batches of a head and query tile), the reference divides by the square root. On the extended reals the two agree
  wherever the batch-0 scale is a positive real, which is what the precondition says of it; the softmax (row maximum,
  shifted exponentials, row sum, quotient) and the two contractions are the same functions on both sides, whatever the
  tiling. The three frames: each program runs to the end and leaves its argument arrays as launched.
-/
import proofs.«173591_j54795192762892_2_alg».proof.Defs
import proofs.«173591_j54795192762892_2_alg».proof.Proof.Gen.Kernel
import proofs.«173591_j54795192762892_2_alg».proof.Proof.Gen.KernelIdeal
import proofs.«173591_j54795192762892_2_alg».proof.Proof.Gen.ReferenceIdeal
import proofs.«173591_j54795192762892_2_alg».proof.Proof.Gen.Pre_finite_inputs
import proofs.«173591_j54795192762892_2_alg».proof.Proof.Gen.ReferenceIdeal.Run
import proofs.«173591_j54795192762892_2_alg».proof.Proof.KBLaunch
import proofs.«173591_j54795192762892_2_alg».proof.Proof.KILaunch
import proofs.«173591_j54795192762892_2_alg».proof.Proof.KIValue
import proofs.«173591_j54795192762892_2_alg».proof.Proof.RefValue
import proofs.«173591_j54795192762892_2_alg».proof.Proof.PreDecode

noncomputable section

namespace Cert.Proof

open Idealize.ShloMosaic Idealize.ShloMosaic.ValueIdx Idealize.SL.Sem

/-- The word-level kernel runs and leaves its arguments as launched. -/
theorem frame_k : Cert.frame_Kernel := fun m ρ _ => Cert.Proof.KB.frame (F := Bits) m ρ

/-- So does the kernel read at the extended reals. -/
theorem frame_ki : Cert.frame_KernelIdeal := fun m ρ _ => Cert.Proof.KI.frame (F := Ideal) m ρ

/-- The reference is host operations only: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From arguments that agree, with the batch-0 scale positive, both programs end at the specification. -/
theorem algebraic : Cert.algebraic_KernelIdeal_ReferenceIdeal := by
  intro m ρ m' ρ' hpre hagree
  refine ⟨_, Cert.Proof.KIValue.run m ρ, ?_⟩
  have hpos : ∀ (c : Dev Cert.ReferenceIdeal.nD) (h : Fin 16) (r k : Fin 1024), ∃ y : ℝ, 0 < y ∧
      (m' ((c.tc : Thread Cert.ReferenceIdeal.nD Cert.ReferenceIdeal.τ).loc Cert.ReferenceIdeal.main_arg3) : Cert.Spec.SS.Idx → EReal) (ix4 (0 : Fin 8) h r k) = (y : EReal) := by
    intro c h r k
    rw [(hagree c).2.2.2]
    exact Cert.PreDecode.pos_of_pre _ _ _ _ (hpre c) h r k
  refine (θ_run Cert.ReferenceIdeal.defs _ _).mono (fun r h c => ?_) (Cert.RefValue.run_G m' ρ' hpos)
  obtain ⟨h19, h0, h1, h2, h3⟩ := h c
  refine ⟨?_, h0, h1, h2, h3⟩
  rw [h19, (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
